-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128x128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S5000x128 : Shape := ⟨2, ![5000, 128]⟩
abbrev S5000x1 : Shape := ⟨2, ![5000, 1]⟩
abbrev S1700000x128 : Shape := ⟨2, ![1700000, 128]⟩
abbrev S1x128 : Shape := ⟨2, ![1, 128]⟩

abbrev nBuf : Space → Nat
  | .hbm => 81
  | .vmem => 42
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x128, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000x128, .f32⟩
  | .hbm, ⟨43, _⟩ => ⟨S_, .f32⟩
  | .hbm, ⟨44, _⟩ => ⟨S100000x128, .f32⟩
  | .hbm, ⟨45, _⟩ => ⟨S1700000x1, .i32⟩
  | .hbm, ⟨46, _⟩ => ⟨S100000x128, .f32⟩
  | .hbm, ⟨47, _⟩ => ⟨S1x128, .f32⟩
  | .hbm, ⟨48, _⟩ => ⟨S100000x128, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x128, .f32⟩
  | .hbm, ⟨75, _⟩ => ⟨S_, .f32⟩
  | .hbm, ⟨76, _⟩ => ⟨S100000x128, .f32⟩
  | .hbm, ⟨77, _⟩ => ⟨S1700000x1, .i32⟩
  | .hbm, ⟨78, _⟩ => ⟨S100000x128, .f32⟩
  | .hbm, ⟨79, _⟩ => ⟨S1x128, .f32⟩
  | .hbm, ⟨80, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x1, .f32⟩
  | .local _ .vmem, ⟨18, _⟩ => ⟨S5000x1, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S5000x1, .f32⟩
  | .local _ .vmem, ⟨32, _⟩ => ⟨S5000x1, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x1, .f32⟩
  | .local _ .vmem, ⟨38, _⟩ => ⟨S5000x1, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_8 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_9 : Ref sig .tc := ⟨.hbm, 66, rfl⟩
abbrev main_v45 : Ref sig .tc := ⟨.hbm, 67, rfl⟩
abbrev main_v46 : Ref sig .tc := ⟨.hbm, 68, rfl⟩
abbrev main_c_10 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem3_1 : DmaSem sig := 41

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S100000x128.size a
  hwx4_3 : ∀ i : grid4.Coords, EltTy.bits .f32 = 32 ∨ (Rect.block (s := S100000x128) S5000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S100000x1.size a
  hwx5_1 : ∀ i : grid5.Coords, EltTy.bits .f32 = 32 ∨ (Rect.block (s := S100000x1) S5000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S100000x128.size a
  hwx5_3 : ∀ i : grid5.Coords, EltTy.bits .f32 = 32 ∨ (Rect.block (s := S100000x128) S5000x128.size (cc5_transform_3 i) (hinb5_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v30) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v17) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v31) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v41) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v42) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v43) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v43) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v17) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v44) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v54) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v17) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v55) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v56) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 155
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S_, .f32⟩
  | 25 => ⟨S100000, .f32⟩
  | 26 => ⟨S100000, .f32⟩
  | 27 => ⟨S100000, .f32⟩
  | 28 => ⟨S_, .f32⟩
  | 29 => ⟨S_, .f32⟩
  | 30 => ⟨S100000, .f32⟩
  | 31 => ⟨S100000, .f32⟩
  | 32 => ⟨S100000x128, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x128, .f32⟩
  | 61 => ⟨S1700000x1, .f32⟩
  | 62 => ⟨S1700000x128, .f32⟩
  | 63 => ⟨S1700000x128, .f32⟩
  | 64 => ⟨S_, .f32⟩
  | 65 => ⟨S100000x128, .f32⟩
  | 66 => ⟨S1700000x1, .i32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S100000x128, .f32⟩
  | 75 => ⟨S_, .i32⟩
  | 76 => ⟨S1700000, .i32⟩
  | 77 => ⟨S1700000, .i1⟩
  | 78 => ⟨S_, .i32⟩
  | 79 => ⟨S1700000, .i32⟩
  | 80 => ⟨S1700000, .i32⟩
  | 81 => ⟨S1700000, .i32⟩
  | 82 => ⟨S1700000x1, .i32⟩
  | 83 => ⟨S1700000, .f32⟩
  | 84 => ⟨S_, .i32⟩
  | 85 => ⟨S1700000, .i32⟩
  | 86 => ⟨S1700000, .i1⟩
  | 87 => ⟨S_, .i32⟩
  | 88 => ⟨S1700000, .i32⟩
  | 89 => ⟨S1700000, .i32⟩
  | 90 => ⟨S1700000, .i32⟩
  | 91 => ⟨S1700000x1, .i32⟩
  | 92 => ⟨S1700000, .f32⟩
  | 93 => ⟨S1700000, .f32⟩
  | 94 => ⟨S_, .i32⟩
  | 95 => ⟨S1700000, .i32⟩
  | 96 => ⟨S1700000, .i1⟩
  | 97 => ⟨S_, .i32⟩
  | 98 => ⟨S1700000, .i32⟩
  | 99 => ⟨S1700000, .i32⟩
  | 100 => ⟨S1700000, .i32⟩
  | 101 => ⟨S1700000x1, .i32⟩
  | 102 => ⟨S1700000x128, .f32⟩
  | 103 => ⟨S1700000x1, .f32⟩
  | 104 => ⟨S1700000x128, .f32⟩
  | 105 => ⟨S1700000x128, .f32⟩
  | 106 => ⟨S_, .f32⟩
  | 107 => ⟨S100000x128, .f32⟩
  | 108 => ⟨S1700000x1, .i32⟩
  | 109 => ⟨S100000x128, .f32⟩
  | 110 => ⟨S1x128, .f32⟩
  | 111 => ⟨S100000x128, .f32⟩
  | 112 => ⟨S100000x128, .f32⟩
  | 113 => ⟨S_, .f32⟩
  | 114 => ⟨S100000x128, .f32⟩
  | 115 => ⟨S100000x128, .f32⟩
  | 116 => ⟨S100000x128, .f32⟩
  | 117 => ⟨S_, .i32⟩
  | 118 => ⟨S1700000, .i32⟩
  | 119 => ⟨S1700000, .i1⟩
  | 120 => ⟨S_, .i32⟩
  | 121 => ⟨S1700000, .i32⟩
  | 122 => ⟨S1700000, .i32⟩
  | 123 => ⟨S1700000, .i32⟩
  | 124 => ⟨S1700000x1, .i32⟩
  | 125 => ⟨S1700000, .f32⟩
  | 126 => ⟨S_, .i32⟩
  | 127 => ⟨S1700000, .i32⟩
  | _ => ⟨S100000x128, .f32⟩

abbrev hbmTy0_1 (i : Nat) : BufTy := match i % 128 with
  | 0 => ⟨S1700000, .i1⟩
  | 1 => ⟨S_, .i32⟩
  | 2 => ⟨S1700000, .i32⟩
  | 3 => ⟨S1700000, .i32⟩
  | 4 => ⟨S1700000, .i32⟩
  | 5 => ⟨S1700000x1, .i32⟩
  | 6 => ⟨S1700000, .f32⟩
  | 7 => ⟨S1700000, .f32⟩
  | 8 => ⟨S_, .i32⟩
  | 9 => ⟨S1700000, .i32⟩
  | 10 => ⟨S1700000, .i1⟩
  | 11 => ⟨S_, .i32⟩
  | 12 => ⟨S1700000, .i32⟩
  | 13 => ⟨S1700000, .i32⟩
  | 14 => ⟨S1700000, .i32⟩
  | 15 => ⟨S1700000x1, .i32⟩
  | 16 => ⟨S1700000x128, .f32⟩
  | 17 => ⟨S1700000x1, .f32⟩
  | 18 => ⟨S1700000x128, .f32⟩
  | 19 => ⟨S1700000x128, .f32⟩
  | 20 => ⟨S_, .f32⟩
  | 21 => ⟨S100000x128, .f32⟩
  | 22 => ⟨S1700000x1, .i32⟩
  | 23 => ⟨S100000x128, .f32⟩
  | 24 => ⟨S1x128, .f32⟩
  | 25 => ⟨S100000x128, .f32⟩
  | 26 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_c_12 : Ref sig .tc := ⟨.hbm, 84, rfl⟩
abbrev main_v58 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_c_15 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_16 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_call2_cst : Ref sig .tc := ⟨.hbm, 113, rfl⟩
abbrev main_call2_v0 : Ref sig .tc := ⟨.hbm, 114, rfl⟩
abbrev main_v82 : Ref sig .tc := ⟨.hbm, 115, rfl⟩
abbrev main_v83 : Ref sig .tc := ⟨.hbm, 116, rfl⟩
abbrev main_c_17 : Ref sig .tc := ⟨.hbm, 117, rfl⟩
abbrev main_v84 : Ref sig .tc := ⟨.hbm, 118, rfl⟩
abbrev main_v85 : Ref sig .tc := ⟨.hbm, 119, rfl⟩
abbrev main_c_18 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_c_19 : Ref sig .tc := ⟨.hbm, 126, rfl⟩
abbrev main_v91 : Ref sig .tc := ⟨.hbm, 127, rfl⟩
abbrev main_v92 : Ref sig .tc := ⟨.hbm, 128, rfl⟩
abbrev main_c_20 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_c_21 : Ref sig .tc := ⟨.hbm, 136, rfl⟩
abbrev main_v99 : Ref sig .tc := ⟨.hbm, 137, rfl⟩
abbrev main_v100 : Ref sig .tc := ⟨.hbm, 138, rfl⟩
abbrev main_c_22 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_cst_23 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  dot_S100000x128_S128x128_S100000x128_1_0_0_1_n_n_wf : DotDims.WF S100000x128 S128x128 S100000x128 [1] [0] [0] [1] [] []
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KRun.lean ====
import proofs.«161498_j6167573037327_2_alg».proof.Proof.Gen.KernelIdeal.Frame

/-!
# The kernel program's run, its result named

Every weakly fair execution of the kernel program terminates, without a fault, with the argument arrays as
launched and the result array at the contents the last region's write-backs leave: the fold of the host
stretches and the regions' exits from the launch memory, read at the result buffer.
-/

set_option maxRecDepth 16384

noncomputable section

namespace Cert.KernelIdeal.RunVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over the segments of the program, the last thread state read against the final state: the result
    buffer holds the last boundary's contents, each argument its launch contents. -/
theorem run_named : θ_run defs (onTc (τ := τ) (main (F := F))) ⟨m, fun _ => 0, ρ⟩ (fun r => ∀ c : Dev nD,
      r.2.mem ((c.tc : Thread nD τ).loc main_v56) = W12 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v56 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.RunVal

end
-- ==== Proof.KTerm.lean ====
import proofs.«161498_j6167573037327_2_alg».proof.KernelIdeal
import Idealize.ShloMosaic.PureOps.Ideal
import Idealize.ShloMosaic.Lib.ValueIdx

/-!
# The kernel's result as a composition of named pieces

The kernel program computes the same three-layer graph convolution with the normalisation factored: the
projected features are scaled by the node scale before they are gathered, and the aggregated rows are scaled
again, by the target's scale, when the bias is added. The two Pallas bodies are written here as whole-array
functions, index by index, on the extended reals; the host operations between them as named functions of the
argument arrays.
-/

noncomputable section

namespace Cert.KernelIdeal.Val

open Cert.KernelIdeal Idealize.ShloMosaic Idealize.ShloMosaic.ValueIdx
open Cert.KernelIdeal.Facts₀ Cert.KernelIdeal.Facts
open scoped BigOperators

section Generic
variable {F : FTy → Type} [FloatOps F] [Cert.KernelIdeal.Facts]

/-- The scatter targets: row 0 of the edge list followed by one self loop per node. -/
def rowIdx (ei : (⟨S2x1600000, .i32⟩ : BufTy).Contents (Elt F)) : (⟨S1700000, .i32⟩ : BufTy).Contents (Elt F) :=
  concatenate S1700000 0 [⟨S1600000, (shapeCast S1600000 (extractStridedSlice S1x1600000 ![0, 0] ei slices_S2x1600000_S1x1600000_0_0) shapeCasts_S1x1600000_S1600000)⟩, ⟨S100000, (iotaInDim S100000 32 0)⟩] concatenates_S1600000_S100000_S1700000_d0

/-- The gather sources: row 1 of the edge list followed by one self loop per node. -/
def colIdx (ei : (⟨S2x1600000, .i32⟩ : BufTy).Contents (Elt F)) : (⟨S1700000, .i32⟩ : BufTy).Contents (Elt F) :=
  concatenate S1700000 0 [⟨S1600000, (shapeCast S1600000 (extractStridedSlice S1x1600000 ![1, 0] ei slices_S2x1600000_S1x1600000_1_0) shapeCasts_S1x1600000_S1600000)⟩, ⟨S100000, (iotaInDim S100000 32 0)⟩] concatenates_S1600000_S100000_S1700000_d0

/-- A negative index counts from the end: v + 100000 where v < 0, v elsewhere. -/
def wrapIdx (v : (⟨S1700000, .i32⟩ : BufTy).Contents (Elt F)) : (⟨S1700000, .i32⟩ : BufTy).Contents (Elt F) :=
  select (cmpi .slt v (broadcastInDim S1700000 ![] bcast_S_S1700000 (constantI S_ 32 0#32))) (addi v (broadcastInDim S1700000 ![] bcast_S_S1700000 (constantI S_ 32 100000#32))) v

/-- A vector of indices laid out as a column [E, 1]. -/
def col1 (v : (⟨S1700000, .i32⟩ : BufTy).Contents (Elt F)) : (⟨S1700000x1, .i32⟩ : BufTy).Contents (Elt F) :=
  broadcastInDim S1700000x1 ![0] bcast_S1700000_S1700000x1_0 v

/-- The degree of every node: a scatter-add of ones along the targets, into zeros. -/
def degv (ei : (⟨S2x1600000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (col1 (rowIdx ei)) (broadcastInDim S1700000 ![] bcast_S_S1700000 (constant S_ .f32 0x3F800000#32))

/-- The node scale: 1/√(max(deg, 1)) where deg > 0, zero elsewhere. -/
def dvec (ei : (⟨S2x1600000, .i32⟩ : BufTy).Contents (Elt F)) : (⟨S100000, .f32⟩ : BufTy).Contents (Elt F) :=
  select (cmpf .ogt (degv ei) (broadcastInDim S100000 ![] bcast_S_S100000 (constant S_ .f32 0x00000000#32))) (Host.rsqrt (maximumf (degv ei) (broadcastInDim S100000 ![] bcast_S_S100000 (constant S_ .f32 0x3F800000#32)))) (broadcastInDim S100000 ![] bcast_S_S100000 (id (constant S_ .f32 0x00000000#32)))

/-- The node scale laid out as a column [N, 1]. -/
def dcol (ei : (⟨S2x1600000, .i32⟩ : BufTy).Contents (Elt F)) : (⟨S100000x1, .f32⟩ : BufTy).Contents (Elt F) :=
  shapeCast S100000x1 (dvec ei) shapeCasts_S100000_S100000x1

/-- A bias vector laid out as a row [1, C]. -/
def brow (b : (⟨S128, .f32⟩ : BufTy).Contents (Elt F)) : (⟨S1x128, .f32⟩ : BufTy).Contents (Elt F) :=
  shapeCast S1x128 b shapeCasts_S128_S1x128

/-- The aggregation: every node collects the rows of H at the (wrapped) sources of the edges landing on it. -/
def agg (H : (⟨S100000x128, .f32⟩ : BufTy).Contents (Elt F)) (ei : (⟨S2x1600000, .i32⟩ : BufTy).Contents (Elt F)) : (⟨S100000x128, .f32⟩ : BufTy).Contents (Elt F) :=
  Host.scatterAdd scatter_S100000x128_S1700000x1_S1700000x128_1_0_0_1 (broadcastInDim S100000x128 ![] bcast_S_S100000x128 (constant S_ .f32 0x00000000#32)) (col1 (rowIdx ei)) (Host.gather gather_S100000x128_S1700000x1_S1700000x128_1_0_n_n_0_1_1128 H (col1 (wrapIdx (colIdx ei))))

end Generic

/-! ## The two kernel bodies on whole arrays, at the exact instance -/

/-- The node (row) coordinate of an index of an [N, C] array. -/
def rowOf (i : S100000x128.Idx) : Fin 100000 := ⟨(i 0).val, (i 0).isLt⟩
/-- The feature (column) coordinate of an index of an [N, C] array. -/
def colOf (i : S100000x128.Idx) : Fin 128 := ⟨(i 1).val, (i 1).isLt⟩

/-- Projection then scale: entry (p, q) is (Σ_k X(p, k) · W(k, q)) · D(p, 0). -/
def mmsI (X : S100000x128.Idx → EReal) (W : S128x128.Idx → EReal) (D : S100000x1.Idx → EReal) : S100000x128.Idx → EReal :=
  fun i => (∑ k : Fin 128, X (ix2 (rowOf i) k) * W (ix2 k (colOf i))) * D (ix2 (rowOf i) (0 : Fin 1))

/-- Scale then bias: entry (p, q) is A(p, q) · D(p, 0) + B(0, q). -/
def bsaLin (A : S100000x128.Idx → EReal) (D : S100000x1.Idx → EReal) (B : S1x128.Idx → EReal) : S100000x128.Idx → EReal :=
  fun i => A i * D (ix2 (rowOf i) (0 : Fin 1)) + B (ix2 (0 : Fin 1) (colOf i))

/-- Scale, bias, then the maximum with zero. -/
def bsaRelu (A : S100000x128.Idx → EReal) (D : S100000x1.Idx → EReal) (B : S1x128.Idx → EReal) : S100000x128.Idx → EReal :=
  fun i => max (A i * D (ix2 (rowOf i) (0 : Fin 1)) + B (ix2 (0 : Fin 1) (colOf i))) 0

theorem mmsI_apply (X : S100000x128.Idx → EReal) (W : S128x128.Idx → EReal) (D : S100000x1.Idx → EReal) (p : Fin 100000) (q : Fin 128) :
    mmsI X W D (ix2 p q) = (∑ k : Fin 128, X (ix2 p k) * W (ix2 k q)) * D (ix2 p (0 : Fin 1)) := rfl

theorem bsaLin_apply (A : S100000x128.Idx → EReal) (D : S100000x1.Idx → EReal) (B : S1x128.Idx → EReal) (p : Fin 100000) (q : Fin 128) :
    bsaLin A D B (ix2 p q) = A (ix2 p q) * D (ix2 p (0 : Fin 1)) + B (ix2 (0 : Fin 1) q) := rfl

theorem bsaRelu_apply (A : S100000x128.Idx → EReal) (D : S100000x1.Idx → EReal) (B : S1x128.Idx → EReal) (p : Fin 100000) (q : Fin 128) :
    bsaRelu A D B (ix2 p q) = max (A (ix2 p q) * D (ix2 p (0 : Fin 1)) + B (ix2 (0 : Fin 1) q)) 0 := rfl

/-! ## The layers and the whole program -/

variable [Cert.KernelIdeal.Facts]

/-- A layer without activation. -/
def layerLin (X : (⟨S100000x128, .f32⟩ : BufTy).Contents (Elt Ideal)) (W : (⟨S128x128, .f32⟩ : BufTy).Contents (Elt Ideal)) (b : (⟨S128, .f32⟩ : BufTy).Contents (Elt Ideal)) (ei : (⟨S2x1600000, .i32⟩ : BufTy).Contents (Elt Ideal)) : (⟨S100000x128, .f32⟩ : BufTy).Contents (Elt Ideal) :=
  bsaLin (agg (F := Ideal) (mmsI X W (dcol (F := Ideal) ei)) ei) (dcol (F := Ideal) ei) (brow (F := Ideal) b)

/-- A layer followed by the maximum with zero. -/
def layerRelu (X : (⟨S100000x128, .f32⟩ : BufTy).Contents (Elt Ideal)) (W : (⟨S128x128, .f32⟩ : BufTy).Contents (Elt Ideal)) (b : (⟨S128, .f32⟩ : BufTy).Contents (Elt Ideal)) (ei : (⟨S2x1600000, .i32⟩ : BufTy).Contents (Elt Ideal)) : (⟨S100000x128, .f32⟩ : BufTy).Contents (Elt Ideal) :=
  bsaRelu (agg (F := Ideal) (mmsI X W (dcol (F := Ideal) ei)) ei) (dcol (F := Ideal) ei) (brow (F := Ideal) b)

/-- The three layers. -/
def kTerm (x : (⟨S100000x128, .f32⟩ : BufTy).Contents (Elt Ideal)) (ei : (⟨S2x1600000, .i32⟩ : BufTy).Contents (Elt Ideal)) (W1 : (⟨S128x128, .f32⟩ : BufTy).Contents (Elt Ideal)) (b1 : (⟨S128, .f32⟩ : BufTy).Contents (Elt Ideal)) (W2 : (⟨S128x128, .f32⟩ : BufTy).Contents (Elt Ideal)) (b2 : (⟨S128, .f32⟩ : BufTy).Contents (Elt Ideal)) (W3 : (⟨S128x128, .f32⟩ : BufTy).Contents (Elt Ideal)) (b3 : (⟨S128, .f32⟩ : BufTy).Contents (Elt Ideal)) : (⟨S100000x128, .f32⟩ : BufTy).Contents (Elt Ideal) :=
  layerLin (layerRelu (layerRelu x W1 b1 ei) W2 b2 ei) W3 b3 ei

end Cert.KernelIdeal.Val

end
-- ==== Proof.LibPlainDot.lean ====
import Idealize.ShloMosaic.PureOps.Ideal.Laws
import Idealize.ShloMosaic.Lib.ValueIdx

/-!
# A plain matrix product read at an entry

For the dimension numbers of an M×K by K×N product with no batch axis, entry (p, q) of the product into a
zero accumulator is the sum over k of left (p, k) times right (k, q), on the extended reals.
-/

noncomputable section

namespace Cert.PlainDot

open Idealize.ShloMosaic Idealize.ShloMosaic.ValueIdx
open scoped BigOperators

theorem contr_rank (M K N : Nat) : (DotDims.plain M K N).contr.rank = 1 := rfl

theorem contr_size (M K N : Nat) :
    (DotDims.plain M K N).contr.size ⟨0, by rw [contr_rank]; exact Nat.one_pos⟩ = K := rfl

/-- The left operand's index at output (p, q) and contraction coordinate k is (p, k). -/
theorem lhsIdx_eq (M K N : Nat) (p : Fin M) (q : Fin N) (k : Fin K) :
    (DotDims.plain M K N).lhsIdx (ix2 p q)
        ((contrEquiv1 (DotDims.plain M K N) K (contr_rank M K N) (contr_size M K N)).symm k) = ix2 p k := by
  have hk := contrEquiv1_symm_val (DotDims.plain M K N) K (contr_rank M K N) (contr_size M K N) k
  funext a
  refine Fin.ext ?_
  match a with
  | ⟨0, _⟩ =>
    show ((DotDims.plain M K N).lhsIdx (ix2 p q) _ 0).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single (cl := (1 : Fin 2)) rfl _ _).trans hk

/-- The right operand's index at output (p, q) and contraction coordinate k is (k, q). -/
theorem rhsIdx_eq (M K N : Nat) (p : Fin M) (q : Fin N) (k : Fin K) :
    (DotDims.plain M K N).rhsIdx (ix2 p q)
        ((contrEquiv1 (DotDims.plain M K N) K (contr_rank M K N) (contr_size M K N)).symm k) = ix2 k q := by
  have hk := contrEquiv1_symm_val (DotDims.plain M K N) K (contr_rank M K N) (contr_size M K N) k
  funext a
  refine Fin.ext ?_
  match a with
  | ⟨0, _⟩ =>
    exact ((DotDims.plain M K N).rhsIdx_val_of_single (cr := (0 : Fin 2)) rfl _ _).trans hk
  | ⟨1, _⟩ =>
    show ((DotDims.plain M K N).rhsIdx (ix2 p q) _ 1).val = q.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- A plain product into the zero accumulator, at entry (p, q). -/
theorem matmul_zero_apply {φ₁ φ₂ : FTy} (M K N : Nat) (prec : Option ContractPrecision)
    (l : FVec Ideal ⟨2, ![M, K]⟩ φ₁) (r : FVec Ideal ⟨2, ![K, N]⟩ φ₂) (p : Fin M) (q : Fin N) :
    matmul (DotDims.plain M K N) prec l r (constant (F := Ideal) ⟨2, ![M, N]⟩ .f32 0x00000000#32) (ix2 p q)
      = ∑ k : Fin K, l (ix2 p k) * r (ix2 k q) := by
  show FloatOps.matmul (DotDims.plain M K N) prec l r (constant ⟨2, ![M, N]⟩ .f32 0x00000000#32) (ix2 p q) = _
  rw [Ideal.matmul_constant_zero_apply,
    ← Equiv.sum_comp (contrEquiv1 (DotDims.plain M K N) K (contr_rank M K N) (contr_size M K N)).symm]
  refine Finset.sum_congr rfl fun k _ => ?_
  rw [lhsIdx_eq, rhsIdx_eq]

end Cert.PlainDot

end
-- ==== Proof.Regions.lean ====
import proofs.«161498_j6167573037327_2_alg».proof.Proof.Gen.KernelIdeal.Frame
import proofs.«161498_j6167573037327_2_alg».proof.Proof.KTerm
import proofs.«161498_j6167573037327_2_alg».proof.Proof.LibPlainDot
import Idealize.ShloMosaic.Lib.Pipeline.Value
import Idealize.ShloMosaic.Lib.ValueIdx
import Idealize.ShloMosaic.PureOps.Ideal.Laws

noncomputable section

/-!
# The six kernel regions' result arrays as whole-array functions

Each region runs its body over 20 row blocks of 5000 rows. At the exact instance the body's payload, read at an
entry (r, q) of a block, is a formula in the entries of the blocks it loads; every input block is the restriction
of its array to the rows 5000 t + r of grid point t (the weights and the bias row are read whole); and the result's
blocks tile the array, row p lying in the block of point p / 5000. So after the write-backs the result array is one
function of the arrays the region finds: projection then scale in regions 0, 2 and 4, scale then bias in regions
1, 3 and 5, followed by the maximum with zero in regions 1 and 3.
-/

namespace Cert.KernelIdeal.RegionVal

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## Shared facts -/

/-- The zero offsets of a whole-block access, however they are spelt. -/
theorem zero_off : (![0, 0] : Fin 2 → Nat) = fun _ => 0 := funext fun a => by fin_cases a <;> rfl

/-- The printed dimension numbers are those of a plain 5000×128 by 128×128 product. -/
theorem dot_eq_plain : dot_S5000x128_S128x128_S5000x128_1_0_0_1_n_n = DotDims.plain 5000 128 128 := rfl

/-- A column [5000, 1] broadcast along the features reads its row's entry. -/
theorem bcast_col_apply (x : S5000x1.Idx → EReal) (r : Fin 5000) (q : Fin 128) :
    broadcastTo S5000x128 x broadcasts_S5000x1_S5000x128 (ix2 r q) = x (ix2 r (0 : Fin 1)) :=
  broadcastTo_apply x broadcasts_S5000x1_S5000x128 (ix2 r q) (ix2 r (0 : Fin 1))
    (fun a => by match a with | ⟨0, _⟩ => rfl | ⟨1, _⟩ => rfl)

/-- A row [1, 128] broadcast along the nodes reads its column's entry. -/
theorem bcast_row_apply (x : S1x128.Idx → EReal) (r : Fin 5000) (q : Fin 128) :
    broadcastTo S5000x128 x broadcasts_S1x128_S5000x128 (ix2 r q) = x (ix2 (0 : Fin 1) q) :=
  broadcastTo_apply x broadcasts_S1x128_S5000x128 (ix2 r q) (ix2 (0 : Fin 1) q)
    (fun a => by match a with | ⟨0, _⟩ => rfl | ⟨1, _⟩ => rfl)

/-- The product of a 5000×128 block with the 128×128 weights, into the zero accumulator, at an entry. -/
theorem matmul_apply (l : FVec Ideal S5000x128 .bf16) (w : FVec Ideal S128x128 .bf16) (r : Fin 5000) (q : Fin 128) :
    matmul dot_S5000x128_S128x128_S5000x128_1_0_0_1_n_n none l w (constant (F := Ideal) S5000x128 .f32 0x00000000#32) (ix2 r q)
      = ∑ k : Fin 128, l (ix2 r k) * w (ix2 k q) := by
  rw [dot_eq_plain]
  exact Cert.PlainDot.matmul_zero_apply 5000 128 128 none l w r q

/-! ## Region 0: projection then scale -/

/-- The payload of the body at an entry of the block. -/
theorem pay0_apply (x0 : Vec Ideal S5000x128 .f32) (x1 : Vec Ideal S128x128 .f32) (x2 : Vec Ideal S5000x1 .f32)
    (r : Fin 5000) (q : Fin 128) :
    k0_pay1 (F := Ideal) x0 x1 x2 (ix2 r q)
      = (∑ k : Fin 128, x0 (ix2 r k) * x1 (ix2 k q)) * x2 (ix2 r (0 : Fin 1)) := by
  unfold k0_pay1
  show matmul dot_S5000x128_S128x128_S5000x128_1_0_0_1_n_n none (truncf .bf16 x0 bitsLt_bf16_f32) (truncf .bf16 x1 bitsLt_bf16_f32) (constant (F := Ideal) S5000x128 .f32 0x00000000#32) (ix2 r q)
      * broadcastTo S5000x128 (shapeCast S5000x1 x2 shapeCasts_S5000x1_S5000x1) broadcasts_S5000x1_S5000x128 (ix2 r q) = _
  rw [matmul_apply, shapeCast_self, bcast_col_apply]
  rfl

/-- The printed index maps, decided over the grid: the row blocks move with the grid point, the weights stay. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row r of block t of the features is row 5000 t + r of the array. -/
theorem emb0_0 (t : Fin cfg0.N) (r : Fin 5000) (k : Fin 128) (p : Fin 100000) (hp : p.val = t.val * 5000 + r.val) :
    ((cfg0.win 0).blk t).view.emb (ix2 r k) = (ix2 p k : S100000x128.Idx) := by
  obtain ⟨e0, e1, -, -, -, -, -, -⟩ := idx_facts0 t
  funext a; apply Fin.ext
  match a with
  | ⟨0, _⟩ => show win0_0.index t (0 : Fin 2) * 5000 + 1 * r.val = p.val; omega
  | ⟨1, _⟩ => show win0_0.index t (1 : Fin 2) * 128 + 1 * k.val = k.val; omega

/-- The weights' one block is the whole array. -/
theorem emb0_1 (t : Fin cfg0.N) (k : Fin 128) (q : Fin 128) :
    ((cfg0.win 1).blk t).view.emb (ix2 k q) = (ix2 k q : S128x128.Idx) := by
  obtain ⟨-, -, e0, e1, -, -, -, -⟩ := idx_facts0 t
  funext a; apply Fin.ext
  match a with
  | ⟨0, _⟩ => show win0_1.index t (0 : Fin 2) * 128 + 1 * k.val = k.val; omega
  | ⟨1, _⟩ => show win0_1.index t (1 : Fin 2) * 128 + 1 * q.val = q.val; omega

/-- Row r of block t of the scale column is row 5000 t + r of the column. -/
theorem emb0_2 (t : Fin cfg0.N) (r : Fin 5000) (p : Fin 100000) (hp : p.val = t.val * 5000 + r.val) :
    ((cfg0.win 2).blk t).view.emb (ix2 r (0 : Fin 1)) = (ix2 p (0 : Fin 1) : S100000x1.Idx) := by
  obtain ⟨-, -, -, -, e0, e1, -, -⟩ := idx_facts0 t
  funext a; apply Fin.ext
  match a with
  | ⟨0, _⟩ => show win0_2.index t (0 : Fin 2) * 5000 + 1 * r.val = p.val; omega
  | ⟨1, _⟩ => show win0_2.index t (1 : Fin 2) * 1 + 1 * (0 : Fin 1).val = (0 : Fin 1).val; rw [e1]; rfl

/-- Row r of block t of the result is row 5000 t + r of the array. -/
theorem emb0_3 (t : Fin cfg0.N) (r : Fin 5000) (q : Fin 128) (p : Fin 100000) (hp : p.val = t.val * 5000 + r.val) :
    ((cfg0.win 3).blk t).view.emb (ix2 r q) = (ix2 p q : S100000x128.Idx) := by
  obtain ⟨-, -, -, -, -, -, e0, e1⟩ := idx_facts0 t
  funext a; apply Fin.ext
  match a with
  | ⟨0, _⟩ => show win0_3.index t (0 : Fin 2) * 5000 + 1 * r.val = p.val; omega
  | ⟨1, _⟩ => show win0_3.index t (1 : Fin 2) * 128 + 1 * q.val = q.val; omega

section
variable (V : (c : Dev nD) → (b : Ref sig .tc) → Buf (Elt Ideal) ((c : Thread nD τ).loc b))

/-- The features' block at point t, read at an entry, is the array at the entry's row of the array. -/
theorem blk0_0_apply (c : Dev nD) (t : Fin cfg0.N) (r : Fin 5000) (k : Fin 128) (p : Fin 100000) (hp : p.val = t.val * 5000 + r.val) :
    (iblk0 (F := Ideal) V c 0 t (ix2 r k) : EReal) = (V c main_arg0 : S100000x128.Idx → EReal) (ix2 p k) := by
  show (V c main_arg0 : S100000x128.Idx → EReal) (((cfg0.win 0).blk t).view.emb (ix2 r k)) = _
  rw [emb0_0 t r k p hp]

/-- The weights' block is the weights. -/
theorem blk0_1_apply (c : Dev nD) (t : Fin cfg0.N) (k : Fin 128) (q : Fin 128) :
    (iblk0 (F := Ideal) V c 1 t (ix2 k q) : EReal) = (V c main_arg2 : S128x128.Idx → EReal) (ix2 k q) := by
  show (V c main_arg2 : S128x128.Idx → EReal) (((cfg0.win 1).blk t).view.emb (ix2 k q)) = _
  rw [emb0_1 t k q]

/-- The scale column's block at point t, read at a row, is the column at the row of the array. -/
theorem blk0_2_apply (c : Dev nD) (t : Fin cfg0.N) (r : Fin 5000) (p : Fin 100000) (hp : p.val = t.val * 5000 + r.val) :
    (iblk0 (F := Ideal) V c 2 t (ix2 r (0 : Fin 1)) : EReal) = (V c main_v17 : S100000x1.Idx → EReal) (ix2 p (0 : Fin 1)) := by
  show (V c main_v17 : S100000x1.Idx → EReal) (((cfg0.win 2).blk t).view.emb (ix2 r (0 : Fin 1))) = _
  rw [emb0_2 t r p hp]

/-- What grid point t writes back is block t of the whole-array function of the arrays the region finds. -/
theorem flushed0_eq (c : Dev nD) (t : Fin cfg0.N) :
    (dat0 (F := Ideal) V c).flushed 3 t
      = ((cfg0.win 3).blk t).view.read (Elt Ideal) (Val.mmsI (V c main_arg0) (V c main_arg2) (V c main_v17)) := by
  show (cfg0.win 3).cut (grid0.coords t) ((dat0 V c).after 3 t) = _
  rw [after0_3]
  unfold out0_3
  rw [View.canon_unit_zero zero_off]
  simp only [View.ld_unit_zero (S := S5000x128) zero_off, View.ld_unit_zero (S := S128x128) zero_off, View.ld_unit_zero (S := S5000x1) zero_off]
  have ht : t.val < 20 := lt_of_lt_of_eq t.isLt N_0
  funext j
  obtain ⟨r, q, rfl⟩ : ∃ (r : Fin 5000) (q : Fin 128), j = ix2 r q := ⟨j 0, j 1, eq_ix2 j⟩
  obtain ⟨p, hp⟩ : ∃ p : Fin 100000, p.val = t.val * 5000 + r.val := ⟨⟨t.val * 5000 + r.val, by have := r.isLt; omega⟩, rfl⟩
  show k0_pay1 (F := Ideal) (iblk0 V c 0 t) (iblk0 V c 1 t) (iblk0 V c 2 t) (ix2 r q)
      = Val.mmsI (V c main_arg0) (V c main_arg2) (V c main_v17) (((cfg0.win 3).blk t).view.emb (ix2 r q))
  refine (pay0_apply (iblk0 V c 0 t) (iblk0 V c 1 t) (iblk0 V c 2 t) r q).trans ?_
  rw [emb0_3 t r q p hp, Val.mmsI_apply]
  exact congrArg₂ (· * ·)
    (Finset.sum_congr rfl fun k _ => congrArg₂ (· * ·) (blk0_0_apply V c t r k p hp) (blk0_1_apply V c t k q))
    (blk0_2_apply V c t r p hp)

end

/-- An index of the array is in point t's block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v18).slice (win0_3.rect t)).set ↔ _
  rw [View.set_slice_whole, Rect.mem_set_unit]
  exact Iff.rfl

/-- Every row is in the block of the grid point row / 5000. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, by rw [show cfg0.N = 20 from N_0]; omega⟩, rfl⟩
  obtain ⟨-, -, -, -, -, -, e0, e1⟩ := idx_facts0 t
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The result array of region 0 after its write-backs, as a whole-array function of the arrays it finds. -/
theorem region0 (V : (c : Dev nD) → (b : Ref sig .tc) → Buf (Elt Ideal) ((c : Thread nD τ).loc b)) (c : Dev nD) :
    (dat0 (F := Ideal) V c).arrAt 3 cfg0.N = Val.mmsI (V c main_arg0) (V c main_arg2) (V c main_v17) :=
  (dat0 V c).arrAt_eq_of_cover 3 (Val.mmsI (V c main_arg0) (V c main_arg2) (V c main_v17))
    (fun t _ => flushed0_eq V c t) cover0

/-! ## Region 1: scale, then bias, then the maximum with zero -/

/-- The payload of the body at an entry of the block. -/
theorem pay1_apply (x0 : Vec Ideal S5000x128 .f32) (x1 : Vec Ideal S5000x1 .f32) (x2 : Vec Ideal S1x128 .f32)
    (r : Fin 5000) (q : Fin 128) :
    k1_pay1 (F := Ideal) x0 x1 x2 (ix2 r q) = max (x0 (ix2 r q) * x1 (ix2 r (0 : Fin 1)) + x2 (ix2 (0 : Fin 1) q)) 0 := by
  unfold k1_pay1
  show max (shapeCast S5000x128 x0 shapeCasts_S5000x128_S5000x128 (ix2 r q)
        * broadcastTo S5000x128 (shapeCast S5000x1 x1 shapeCasts_S5000x1_S5000x1) broadcasts_S5000x1_S5000x128 (ix2 r q)
      + broadcastTo S5000x128 (shapeCast S1x128 x2 shapeCasts_S1x128_S1x128) broadcasts_S1x128_S5000x128 (ix2 r q)) (Ideal.ofBits .f32 0x00000000#32) = _
  rw [shapeCast_self, shapeCast_self, shapeCast_self, bcast_col_apply, bcast_row_apply, Ideal.ofBits_zero_f32]

/-- The printed index maps, decided over the grid: the row blocks move with the grid point, the bias row stays. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row r of block t of the aggregated rows is row 5000 t + r of the array. -/
theorem emb1_0 (t : Fin cfg1.N) (r : Fin 5000) (q : Fin 128) (p : Fin 100000) (hp : p.val = t.val * 5000 + r.val) :
    ((cfg1.win 0).blk t).view.emb (ix2 r q) = (ix2 p q : S100000x128.Idx) := by
  obtain ⟨e0, e1, -, -, -, -, -, -⟩ := idx_facts1 t
  funext a; apply Fin.ext
  match a with
  | ⟨0, _⟩ => show win1_0.index t (0 : Fin 2) * 5000 + 1 * r.val = p.val; omega
  | ⟨1, _⟩ => show win1_0.index t (1 : Fin 2) * 128 + 1 * q.val = q.val; omega

/-- Row r of block t of the scale column is row 5000 t + r of the column. -/
theorem emb1_1 (t : Fin cfg1.N) (r : Fin 5000) (p : Fin 100000) (hp : p.val = t.val * 5000 + r.val) :
    ((cfg1.win 1).blk t).view.emb (ix2 r (0 : Fin 1)) = (ix2 p (0 : Fin 1) : S100000x1.Idx) := by
  obtain ⟨-, -, e0, e1, -, -, -, -⟩ := idx_facts1 t
  funext a; apply Fin.ext
  match a with
  | ⟨0, _⟩ => show win1_1.index t (0 : Fin 2) * 5000 + 1 * r.val = p.val; omega
  | ⟨1, _⟩ => show win1_1.index t (1 : Fin 2) * 1 + 1 * (0 : Fin 1).val = (0 : Fin 1).val; rw [e1]; rfl

/-- The bias row's one block is the whole row. -/
theorem emb1_2 (t : Fin cfg1.N) (q : Fin 128) :
    ((cfg1.win 2).blk t).view.emb (ix2 (0 : Fin 1) q) = (ix2 (0 : Fin 1) q : S1x128.Idx) := by
  obtain ⟨-, -, -, -, e0, e1, -, -⟩ := idx_facts1 t
  funext a; apply Fin.ext
  match a with
  | ⟨0, _⟩ => show win1_2.index t (0 : Fin 2) * 1 + 1 * (0 : Fin 1).val = (0 : Fin 1).val; rw [e0]; rfl
  | ⟨1, _⟩ => show win1_2.index t (1 : Fin 2) * 128 + 1 * q.val = q.val; omega

/-- Row r of block t of the result is row 5000 t + r of the array. -/
theorem emb1_3 (t : Fin cfg1.N) (r : Fin 5000) (q : Fin 128) (p : Fin 100000) (hp : p.val = t.val * 5000 + r.val) :
    ((cfg1.win 3).blk t).view.emb (ix2 r q) = (ix2 p q : S100000x128.Idx) := by
  obtain ⟨-, -, -, -, -, -, e0, e1⟩ := idx_facts1 t
  funext a; apply Fin.ext
  match a with
  | ⟨0, _⟩ => show win1_3.index t (0 : Fin 2) * 5000 + 1 * r.val = p.val; omega
  | ⟨1, _⟩ => show win1_3.index t (1 : Fin 2) * 128 + 1 * q.val = q.val; omega

section
variable (V : (c : Dev nD) → (b : Ref sig .tc) → Buf (Elt Ideal) ((c : Thread nD τ).loc b))

/-- The aggregated rows' block at point t, read at an entry, is the array at the entry's row of the array. -/
theorem blk1_0_apply (c : Dev nD) (t : Fin cfg1.N) (r : Fin 5000) (q : Fin 128) (p : Fin 100000) (hp : p.val = t.val * 5000 + r.val) :
    (iblk1 (F := Ideal) V c 0 t (ix2 r q) : EReal) = (V c main_v28 : S100000x128.Idx → EReal) (ix2 p q) := by
  show (V c main_v28 : S100000x128.Idx → EReal) (((cfg1.win 0).blk t).view.emb (ix2 r q)) = _
  rw [emb1_0 t r q p hp]

/-- The scale column's block at point t, read at a row, is the column at the row of the array. -/
theorem blk1_1_apply (c : Dev nD) (t : Fin cfg1.N) (r : Fin 5000) (p : Fin 100000) (hp : p.val = t.val * 5000 + r.val) :
    (iblk1 (F := Ideal) V c 1 t (ix2 r (0 : Fin 1)) : EReal) = (V c main_v17 : S100000x1.Idx → EReal) (ix2 p (0 : Fin 1)) := by
  show (V c main_v17 : S100000x1.Idx → EReal) (((cfg1.win 1).blk t).view.emb (ix2 r (0 : Fin 1))) = _
  rw [emb1_1 t r p hp]

/-- The bias row's block is the bias row. -/
theorem blk1_2_apply (c : Dev nD) (t : Fin cfg1.N) (q : Fin 128) :
    (iblk1 (F := Ideal) V c 2 t (ix2 (0 : Fin 1) q) : EReal) = (V c main_v29 : S1x128.Idx → EReal) (ix2 (0 : Fin 1) q) := by
  show (V c main_v29 : S1x128.Idx → EReal) (((cfg1.win 2).blk t).view.emb (ix2 (0 : Fin 1) q)) = _
  rw [emb1_2 t q]

/-- What grid point t writes back is block t of the whole-array function of the arrays the region finds. -/
theorem flushed1_eq (c : Dev nD) (t : Fin cfg1.N) :
    (dat1 (F := Ideal) V c).flushed 3 t
      = ((cfg1.win 3).blk t).view.read (Elt Ideal) (Val.bsaRelu (V c main_v28) (V c main_v17) (V c main_v29)) := by
  show (cfg1.win 3).cut (grid1.coords t) ((dat1 V c).after 3 t) = _
  rw [after1_3]
  unfold out1_3
  rw [View.canon_unit_zero zero_off]
  simp only [View.ld_unit_zero (S := S5000x128) zero_off, View.ld_unit_zero (S := S5000x1) zero_off, View.ld_unit_zero (S := S1x128) zero_off]
  have ht : t.val < 20 := lt_of_lt_of_eq t.isLt N_1
  funext j
  obtain ⟨r, q, rfl⟩ : ∃ (r : Fin 5000) (q : Fin 128), j = ix2 r q := ⟨j 0, j 1, eq_ix2 j⟩
  obtain ⟨p, hp⟩ : ∃ p : Fin 100000, p.val = t.val * 5000 + r.val := ⟨⟨t.val * 5000 + r.val, by have := r.isLt; omega⟩, rfl⟩
  show k1_pay1 (F := Ideal) (iblk1 V c 0 t) (iblk1 V c 1 t) (iblk1 V c 2 t) (ix2 r q)
      = Val.bsaRelu (V c main_v28) (V c main_v17) (V c main_v29) (((cfg1.win 3).blk t).view.emb (ix2 r q))
  refine (pay1_apply (iblk1 V c 0 t) (iblk1 V c 1 t) (iblk1 V c 2 t) r q).trans ?_
  rw [emb1_3 t r q p hp, Val.bsaRelu_apply]
  exact congrArg (max · 0) (congrArg₂ (· + ·)
    (congrArg₂ (· * ·) (blk1_0_apply V c t r q p hp) (blk1_1_apply V c t r p hp))
    (blk1_2_apply V c t q))

end

/-- An index of the array is in point t's block iff each coordinate is in the block's range on its axis. -/
theorem mem_blk1 (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v30).slice (win1_3.rect t)).set ↔ _
  rw [View.set_slice_whole, Rect.mem_set_unit]
  exact Iff.rfl

/-- Every row is in the block of the grid point row / 5000. -/
theorem cover1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ : ∃ t : Fin cfg1.N, t.val = (i 0).val / 5000 :=
    ⟨⟨(i 0).val / 5000, by rw [show cfg1.N = 20 from N_1]; omega⟩, rfl⟩
  obtain ⟨-, -, -, -, -, -, e0, e1⟩ := idx_facts1 t
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The result array of region 1 after its write-backs, as a whole-array function of the arrays it finds. -/
theorem region1 (V : (c : Dev nD) → (b : Ref sig .tc) → Buf (Elt Ideal) ((c : Thread nD τ).loc b)) (c : Dev nD) :
    (dat1 (F := Ideal) V c).arrAt 3 cfg1.N = Val.bsaRelu (V c main_v28) (V c main_v17) (V c main_v29) :=
  (dat1 V c).arrAt_eq_of_cover 3 (Val.bsaRelu (V c main_v28) (V c main_v17) (V c main_v29))
    (fun t _ => flushed1_eq V c t) cover1

/-! ## Region 2: projection then scale -/

/-- The payload of the body at an entry of the block. -/
theorem pay2_apply (x0 : Vec Ideal S5000x128 .f32) (x1 : Vec Ideal S128x128 .f32) (x2 : Vec Ideal S5000x1 .f32)
    (r : Fin 5000) (q : Fin 128) :
    k2_pay1 (F := Ideal) x0 x1 x2 (ix2 r q)
      = (∑ k : Fin 128, x0 (ix2 r k) * x1 (ix2 k q)) * x2 (ix2 r (0 : Fin 1)) := by
  unfold k2_pay1
  show matmul dot_S5000x128_S128x128_S5000x128_1_0_0_1_n_n none (truncf .bf16 (shapeCast S5000x128 x0 shapeCasts_S5000x128_S5000x128) bitsLt_bf16_f32) (truncf .bf16 x1 bitsLt_bf16_f32) (constant (F := Ideal) S5000x128 .f32 0x00000000#32) (ix2 r q)
      * broadcastTo S5000x128 (shapeCast S5000x1 x2 shapeCasts_S5000x1_S5000x1) broadcasts_S5000x1_S5000x128 (ix2 r q) = _
  rw [matmul_apply, shapeCast_self, shapeCast_self, bcast_col_apply]
  rfl

/-- The printed index maps, decided over the grid: the row blocks move with the grid point, the weights stay. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Row r of block t of the features is row 5000 t + r of the array. -/
theorem emb2_0 (t : Fin cfg2.N) (r : Fin 5000) (k : Fin 128) (p : Fin 100000) (hp : p.val = t.val * 5000 + r.val) :
    ((cfg2.win 0).blk t).view.emb (ix2 r k) = (ix2 p k : S100000x128.Idx) := by
  obtain ⟨e0, e1, -, -, -, -, -, -⟩ := idx_facts2 t
  funext a; apply Fin.ext
  match a with
  | ⟨0, _⟩ => show win2_0.index t (0 : Fin 2) * 5000 + 1 * r.val = p.val; omega
  | ⟨1, _⟩ => show win2_0.index t (1 : Fin 2) * 128 + 1 * k.val = k.val; omega

/-- The weights' one block is the whole array. -/
theorem emb2_1 (t : Fin cfg2.N) (k : Fin 128) (q : Fin 128) :
    ((cfg2.win 1).blk t).view.emb (ix2 k q) = (ix2 k q : S128x128.Idx) := by
  obtain ⟨-, -, e0, e1, -, -, -, -⟩ := idx_facts2 t
  funext a; apply Fin.ext
  match a with
  | ⟨0, _⟩ => show win2_1.index t (0 : Fin 2) * 128 + 1 * k.val = k.val; omega
  | ⟨1, _⟩ => show win2_1.index t (1 : Fin 2) * 128 + 1 * q.val = q.val; omega

/-- Row r of block t of the scale column is row 5000 t + r of the column. -/
theorem emb2_2 (t : Fin cfg2.N) (r : Fin 5000) (p : Fin 100000) (hp : p.val = t.val * 5000 + r.val) :
    ((cfg2.win 2).blk t).view.emb (ix2 r (0 : Fin 1)) = (ix2 p (0 : Fin 1) : S100000x1.Idx) := by
  obtain ⟨-, -, -, -, e0, e1, -, -⟩ := idx_facts2 t
  funext a; apply Fin.ext
  match a with
  | ⟨0, _⟩ => show win2_2.index t (0 : Fin 2) * 5000 + 1 * r.val = p.val; omega
  | ⟨1, _⟩ => show win2_2.index t (1 : Fin 2) * 1 + 1 * (0 : Fin 1).val = (0 : Fin 1).val; rw [e1]; rfl

/-- Row r of block t of the result is row 5000 t + r of the array. -/
theorem emb2_3 (t : Fin cfg2.N) (r : Fin 5000) (q : Fin 128) (p : Fin 100000) (hp : p.val = t.val * 5000 + r.val) :
    ((cfg2.win 3).blk t).view.emb (ix2 r q) = (ix2 p q : S100000x128.Idx) := by
  obtain ⟨-, -, -, -, -, -, e0, e1⟩ := idx_facts2 t
  funext a; apply Fin.ext
  match a with
  | ⟨0, _⟩ => show win2_3.index t (0 : Fin 2) * 5000 + 1 * r.val = p.val; omega
  | ⟨1, _⟩ => show win2_3.index t (1 : Fin 2) * 128 + 1 * q.val = q.val; omega

section
variable (V : (c : Dev nD) → (b : Ref sig .tc) → Buf (Elt Ideal) ((c : Thread nD τ).loc b))

/-- The features' block at point t, read at an entry, is the array at the entry's row of the array. -/
theorem blk2_0_apply (c : Dev nD) (t : Fin cfg2.N) (r : Fin 5000) (k : Fin 128) (p : Fin 100000) (hp : p.val = t.val * 5000 + r.val) :
    (iblk2 (F := Ideal) V c 0 t (ix2 r k) : EReal) = (V c main_v30 : S100000x128.Idx → EReal) (ix2 p k) := by
  show (V c main_v30 : S100000x128.Idx → EReal) (((cfg2.win 0).blk t).view.emb (ix2 r k)) = _
  rw [emb2_0 t r k p hp]

/-- The weights' block is the weights. -/
theorem blk2_1_apply (c : Dev nD) (t : Fin cfg2.N) (k : Fin 128) (q : Fin 128) :
    (iblk2 (F := Ideal) V c 1 t (ix2 k q) : EReal) = (V c main_arg4 : S128x128.Idx → EReal) (ix2 k q) := by
  show (V c main_arg4 : S128x128.Idx → EReal) (((cfg2.win 1).blk t).view.emb (ix2 k q)) = _
  rw [emb2_1 t k q]

/-- The scale column's block at point t, read at a row, is the column at the row of the array. -/
theorem blk2_2_apply (c : Dev nD) (t : Fin cfg2.N) (r : Fin 5000) (p : Fin 100000) (hp : p.val = t.val * 5000 + r.val) :
    (iblk2 (F := Ideal) V c 2 t (ix2 r (0 : Fin 1)) : EReal) = (V c main_v17 : S100000x1.Idx → EReal) (ix2 p (0 : Fin 1)) := by
  show (V c main_v17 : S100000x1.Idx → EReal) (((cfg2.win 2).blk t).view.emb (ix2 r (0 : Fin 1))) = _
  rw [emb2_2 t r p hp]

/-- What grid point t writes back is block t of the whole-array function of the arrays the region finds. -/
theorem flushed2_eq (c : Dev nD) (t : Fin cfg2.N) :
    (dat2 (F := Ideal) V c).flushed 3 t
      = ((cfg2.win 3).blk t).view.read (Elt Ideal) (Val.mmsI (V c main_v30) (V c main_arg4) (V c main_v17)) := by
  show (cfg2.win 3).cut (grid2.coords t) ((dat2 V c).after 3 t) = _
  rw [after2_3]
  unfold out2_3
  rw [View.canon_unit_zero zero_off]
  simp only [View.ld_unit_zero (S := S5000x128) zero_off, View.ld_unit_zero (S := S128x128) zero_off, View.ld_unit_zero (S := S5000x1) zero_off]
  have ht : t.val < 20 := lt_of_lt_of_eq t.isLt N_2
  funext j
  obtain ⟨r, q, rfl⟩ : ∃ (r : Fin 5000) (q : Fin 128), j = ix2 r q := ⟨j 0, j 1, eq_ix2 j⟩
  obtain ⟨p, hp⟩ : ∃ p : Fin 100000, p.val = t.val * 5000 + r.val := ⟨⟨t.val * 5000 + r.val, by have := r.isLt; omega⟩, rfl⟩
  show k2_pay1 (F := Ideal) (iblk2 V c 0 t) (iblk2 V c 1 t) (iblk2 V c 2 t) (ix2 r q)
      = Val.mmsI (V c main_v30) (V c main_arg4) (V c main_v17) (((cfg2.win 3).blk t).view.emb (ix2 r q))
  refine (pay2_apply (iblk2 V c 0 t) (iblk2 V c 1 t) (iblk2 V c 2 t) r q).trans ?_
  rw [emb2_3 t r q p hp, Val.mmsI_apply]
  exact congrArg₂ (· * ·)
    (Finset.sum_congr rfl fun k _ => congrArg₂ (· * ·) (blk2_0_apply V c t r k p hp) (blk2_1_apply V c t k q))
    (blk2_2_apply V c t r p hp)

end

/-- An index of the array is in point t's block iff each coordinate is in the block's range on its axis. -/
theorem mem_blk2 (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v31).slice (win2_3.rect t)).set ↔ _
  rw [View.set_slice_whole, Rect.mem_set_unit]
  exact Iff.rfl

/-- Every row is in the block of the grid point row / 5000. -/
theorem cover2 (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  obtain ⟨t, ht⟩ : ∃ t : Fin cfg2.N, t.val = (i 0).val / 5000 :=
    ⟨⟨(i 0).val / 5000, by rw [show cfg2.N = 20 from N_2]; omega⟩, rfl⟩
  obtain ⟨-, -, -, -, -, -, e0, e1⟩ := idx_facts2 t
  refine ⟨t, flush2_3 t, ?_⟩
  rw [mem_blk2]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- The result array of region 2 after its write-backs, as a whole-array function of the arrays it finds. -/
theorem region2 (V : (c : Dev nD) → (b : Ref sig .tc) → Buf (Elt Ideal) ((c : Thread nD τ).loc b)) (c : Dev nD) :
    (dat2 (F := Ideal) V c).arrAt 3 cfg2.N = Val.mmsI (V c main_v30) (V c main_arg4) (V c main_v17) :=
  (dat2 V c).arrAt_eq_of_cover 3 (Val.mmsI (V c main_v30) (V c main_arg4) (V c main_v17))
    (fun t _ => flushed2_eq V c t) cover2

/-! ## Region 3: scale, then bias, then the maximum with zero -/

/-- The payload of the body at an entry of the block. -/
theorem pay3_apply (x0 : Vec Ideal S5000x128 .f32) (x1 : Vec Ideal S5000x1 .f32) (x2 : Vec Ideal S1x128 .f32)
    (r : Fin 5000) (q : Fin 128) :
    k3_pay1 (F := Ideal) x0 x1 x2 (ix2 r q) = max (x0 (ix2 r q) * x1 (ix2 r (0 : Fin 1)) + x2 (ix2 (0 : Fin 1) q)) 0 := by
  unfold k3_pay1
  show max (shapeCast S5000x128 x0 shapeCasts_S5000x128_S5000x128 (ix2 r q)
        * broadcastTo S5000x128 (shapeCast S5000x1 x1 shapeCasts_S5000x1_S5000x1) broadcasts_S5000x1_S5000x128 (ix2 r q)
      + broadcastTo S5000x128 (shapeCast S1x128 x2 shapeCasts_S1x128_S1x128) broadcasts_S1x128_S5000x128 (ix2 r q)) (Ideal.ofBits .f32 0x00000000#32) = _
  rw [shapeCast_self, shapeCast_self, shapeCast_self, bcast_col_apply, bcast_row_apply, Ideal.ofBits_zero_f32]

/-- The printed index maps, decided over the grid: the row blocks move with the grid point, the bias row stays. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Row r of block t of the aggregated rows is row 5000 t + r of the array. -/
theorem emb3_0 (t : Fin cfg3.N) (r : Fin 5000) (q : Fin 128) (p : Fin 100000) (hp : p.val = t.val * 5000 + r.val) :
    ((cfg3.win 0).blk t).view.emb (ix2 r q) = (ix2 p q : S100000x128.Idx) := by
  obtain ⟨e0, e1, -, -, -, -, -, -⟩ := idx_facts3 t
  funext a; apply Fin.ext
  match a with
  | ⟨0, _⟩ => show win3_0.index t (0 : Fin 2) * 5000 + 1 * r.val = p.val; omega
  | ⟨1, _⟩ => show win3_0.index t (1 : Fin 2) * 128 + 1 * q.val = q.val; omega

/-- Row r of block t of the scale column is row 5000 t + r of the column. -/
theorem emb3_1 (t : Fin cfg3.N) (r : Fin 5000) (p : Fin 100000) (hp : p.val = t.val * 5000 + r.val) :
    ((cfg3.win 1).blk t).view.emb (ix2 r (0 : Fin 1)) = (ix2 p (0 : Fin 1) : S100000x1.Idx) := by
  obtain ⟨-, -, e0, e1, -, -, -, -⟩ := idx_facts3 t
  funext a; apply Fin.ext
  match a with
  | ⟨0, _⟩ => show win3_1.index t (0 : Fin 2) * 5000 + 1 * r.val = p.val; omega
  | ⟨1, _⟩ => show win3_1.index t (1 : Fin 2) * 1 + 1 * (0 : Fin 1).val = (0 : Fin 1).val; rw [e1]; rfl

/-- The bias row's one block is the whole row. -/
theorem emb3_2 (t : Fin cfg3.N) (q : Fin 128) :
    ((cfg3.win 2).blk t).view.emb (ix2 (0 : Fin 1) q) = (ix2 (0 : Fin 1) q : S1x128.Idx) := by
  obtain ⟨-, -, -, -, e0, e1, -, -⟩ := idx_facts3 t
  funext a; apply Fin.ext
  match a with
  | ⟨0, _⟩ => show win3_2.index t (0 : Fin 2) * 1 + 1 * (0 : Fin 1).val = (0 : Fin 1).val; rw [e0]; rfl
  | ⟨1, _⟩ => show win3_2.index t (1 : Fin 2) * 128 + 1 * q.val = q.val; omega

/-- Row r of block t of the result is row 5000 t + r of the array. -/
theorem emb3_3 (t : Fin cfg3.N) (r : Fin 5000) (q : Fin 128) (p : Fin 100000) (hp : p.val = t.val * 5000 + r.val) :
    ((cfg3.win 3).blk t).view.emb (ix2 r q) = (ix2 p q : S100000x128.Idx) := by
  obtain ⟨-, -, -, -, -, -, e0, e1⟩ := idx_facts3 t
  funext a; apply Fin.ext
  match a with
  | ⟨0, _⟩ => show win3_3.index t (0 : Fin 2) * 5000 + 1 * r.val = p.val; omega
  | ⟨1, _⟩ => show win3_3.index t (1 : Fin 2) * 128 + 1 * q.val = q.val; omega

section
variable (V : (c : Dev nD) → (b : Ref sig .tc) → Buf (Elt Ideal) ((c : Thread nD τ).loc b))

/-- The aggregated rows' block at point t, read at an entry, is the array at the entry's row of the array. -/
theorem blk3_0_apply (c : Dev nD) (t : Fin cfg3.N) (r : Fin 5000) (q : Fin 128) (p : Fin 100000) (hp : p.val = t.val * 5000 + r.val) :
    (iblk3 (F := Ideal) V c 0 t (ix2 r q) : EReal) = (V c main_v41 : S100000x128.Idx → EReal) (ix2 p q) := by
  show (V c main_v41 : S100000x128.Idx → EReal) (((cfg3.win 0).blk t).view.emb (ix2 r q)) = _
  rw [emb3_0 t r q p hp]

/-- The scale column's block at point t, read at a row, is the column at the row of the array. -/
theorem blk3_1_apply (c : Dev nD) (t : Fin cfg3.N) (r : Fin 5000) (p : Fin 100000) (hp : p.val = t.val * 5000 + r.val) :
    (iblk3 (F := Ideal) V c 1 t (ix2 r (0 : Fin 1)) : EReal) = (V c main_v17 : S100000x1.Idx → EReal) (ix2 p (0 : Fin 1)) := by
  show (V c main_v17 : S100000x1.Idx → EReal) (((cfg3.win 1).blk t).view.emb (ix2 r (0 : Fin 1))) = _
  rw [emb3_1 t r p hp]

/-- The bias row's block is the bias row. -/
theorem blk3_2_apply (c : Dev nD) (t : Fin cfg3.N) (q : Fin 128) :
    (iblk3 (F := Ideal) V c 2 t (ix2 (0 : Fin 1) q) : EReal) = (V c main_v42 : S1x128.Idx → EReal) (ix2 (0 : Fin 1) q) := by
  show (V c main_v42 : S1x128.Idx → EReal) (((cfg3.win 2).blk t).view.emb (ix2 (0 : Fin 1) q)) = _
  rw [emb3_2 t q]

/-- What grid point t writes back is block t of the whole-array function of the arrays the region finds. -/
theorem flushed3_eq (c : Dev nD) (t : Fin cfg3.N) :
    (dat3 (F := Ideal) V c).flushed 3 t
      = ((cfg3.win 3).blk t).view.read (Elt Ideal) (Val.bsaRelu (V c main_v41) (V c main_v17) (V c main_v42)) := by
  show (cfg3.win 3).cut (grid3.coords t) ((dat3 V c).after 3 t) = _
  rw [after3_3]
  unfold out3_3
  rw [View.canon_unit_zero zero_off]
  simp only [View.ld_unit_zero (S := S5000x128) zero_off, View.ld_unit_zero (S := S5000x1) zero_off, View.ld_unit_zero (S := S1x128) zero_off]
  have ht : t.val < 20 := lt_of_lt_of_eq t.isLt N_3
  funext j
  obtain ⟨r, q, rfl⟩ : ∃ (r : Fin 5000) (q : Fin 128), j = ix2 r q := ⟨j 0, j 1, eq_ix2 j⟩
  obtain ⟨p, hp⟩ : ∃ p : Fin 100000, p.val = t.val * 5000 + r.val := ⟨⟨t.val * 5000 + r.val, by have := r.isLt; omega⟩, rfl⟩
  show k3_pay1 (F := Ideal) (iblk3 V c 0 t) (iblk3 V c 1 t) (iblk3 V c 2 t) (ix2 r q)
      = Val.bsaRelu (V c main_v41) (V c main_v17) (V c main_v42) (((cfg3.win 3).blk t).view.emb (ix2 r q))
  refine (pay3_apply (iblk3 V c 0 t) (iblk3 V c 1 t) (iblk3 V c 2 t) r q).trans ?_
  rw [emb3_3 t r q p hp, Val.bsaRelu_apply]
  exact congrArg (max · 0) (congrArg₂ (· + ·)
    (congrArg₂ (· * ·) (blk3_0_apply V c t r q p hp) (blk3_1_apply V c t r p hp))
    (blk3_2_apply V c t q))

end

/-- An index of the array is in point t's block iff each coordinate is in the block's range on its axis. -/
theorem mem_blk3 (t : Fin cfg3.N) (i : S100000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v43).slice (win3_3.rect t)).set ↔ _
  rw [View.set_slice_whole, Rect.mem_set_unit]
  exact Iff.rfl

/-- Every row is in the block of the grid point row / 5000. -/
theorem cover3 (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  obtain ⟨t, ht⟩ : ∃ t : Fin cfg3.N, t.val = (i 0).val / 5000 :=
    ⟨⟨(i 0).val / 5000, by rw [show cfg3.N = 20 from N_3]; omega⟩, rfl⟩
  obtain ⟨-, -, -, -, -, -, e0, e1⟩ := idx_facts3 t
  refine ⟨t, flush3_3 t, ?_⟩
  rw [mem_blk3]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

/-- The result array of region 3 after its write-backs, as a whole-array function of the arrays it finds. -/
theorem region3 (V : (c : Dev nD) → (b : Ref sig .tc) → Buf (Elt Ideal) ((c : Thread nD τ).loc b)) (c : Dev nD) :
    (dat3 (F := Ideal) V c).arrAt 3 cfg3.N = Val.bsaRelu (V c main_v41) (V c main_v17) (V c main_v42) :=
  (dat3 V c).arrAt_eq_of_cover 3 (Val.bsaRelu (V c main_v41) (V c main_v17) (V c main_v42))
    (fun t _ => flushed3_eq V c t) cover3

/-! ## Region 4: projection then scale -/

/-- The payload of the body at an entry of the block. -/
theorem pay4_apply (x0 : Vec Ideal S5000x128 .f32) (x1 : Vec Ideal S128x128 .f32) (x2 : Vec Ideal S5000x1 .f32)
    (r : Fin 5000) (q : Fin 128) :
    k4_pay1 (F := Ideal) x0 x1 x2 (ix2 r q)
      = (∑ k : Fin 128, x0 (ix2 r k) * x1 (ix2 k q)) * x2 (ix2 r (0 : Fin 1)) := by
  unfold k4_pay1
  show matmul dot_S5000x128_S128x128_S5000x128_1_0_0_1_n_n none (truncf .bf16 (shapeCast S5000x128 x0 shapeCasts_S5000x128_S5000x128) bitsLt_bf16_f32) (truncf .bf16 x1 bitsLt_bf16_f32) (constant (F := Ideal) S5000x128 .f32 0x00000000#32) (ix2 r q)
      * broadcastTo S5000x128 (shapeCast S5000x1 x2 shapeCasts_S5000x1_S5000x1) broadcasts_S5000x1_S5000x128 (ix2 r q) = _
  rw [matmul_apply, shapeCast_self, shapeCast_self, bcast_col_apply]
  rfl

/-- The printed index maps, decided over the grid: the row blocks move with the grid point, the weights stay. -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

/-- Row r of block t of the features is row 5000 t + r of the array. -/
theorem emb4_0 (t : Fin cfg4.N) (r : Fin 5000) (k : Fin 128) (p : Fin 100000) (hp : p.val = t.val * 5000 + r.val) :
    ((cfg4.win 0).blk t).view.emb (ix2 r k) = (ix2 p k : S100000x128.Idx) := by
  obtain ⟨e0, e1, -, -, -, -, -, -⟩ := idx_facts4 t
  funext a; apply Fin.ext
  match a with
  | ⟨0, _⟩ => show win4_0.index t (0 : Fin 2) * 5000 + 1 * r.val = p.val; omega
  | ⟨1, _⟩ => show win4_0.index t (1 : Fin 2) * 128 + 1 * k.val = k.val; omega

/-- The weights' one block is the whole array. -/
theorem emb4_1 (t : Fin cfg4.N) (k : Fin 128) (q : Fin 128) :
    ((cfg4.win 1).blk t).view.emb (ix2 k q) = (ix2 k q : S128x128.Idx) := by
  obtain ⟨-, -, e0, e1, -, -, -, -⟩ := idx_facts4 t
  funext a; apply Fin.ext
  match a with
  | ⟨0, _⟩ => show win4_1.index t (0 : Fin 2) * 128 + 1 * k.val = k.val; omega
  | ⟨1, _⟩ => show win4_1.index t (1 : Fin 2) * 128 + 1 * q.val = q.val; omega

/-- Row r of block t of the scale column is row 5000 t + r of the column. -/
theorem emb4_2 (t : Fin cfg4.N) (r : Fin 5000) (p : Fin 100000) (hp : p.val = t.val * 5000 + r.val) :
    ((cfg4.win 2).blk t).view.emb (ix2 r (0 : Fin 1)) = (ix2 p (0 : Fin 1) : S100000x1.Idx) := by
  obtain ⟨-, -, -, -, e0, e1, -, -⟩ := idx_facts4 t
  funext a; apply Fin.ext
  match a with
  | ⟨0, _⟩ => show win4_2.index t (0 : Fin 2) * 5000 + 1 * r.val = p.val; omega
  | ⟨1, _⟩ => show win4_2.index t (1 : Fin 2) * 1 + 1 * (0 : Fin 1).val = (0 : Fin 1).val; rw [e1]; rfl

/-- Row r of block t of the result is row 5000 t + r of the array. -/
theorem emb4_3 (t : Fin cfg4.N) (r : Fin 5000) (q : Fin 128) (p : Fin 100000) (hp : p.val = t.val * 5000 + r.val) :
    ((cfg4.win 3).blk t).view.emb (ix2 r q) = (ix2 p q : S100000x128.Idx) := by
  obtain ⟨-, -, -, -, -, -, e0, e1⟩ := idx_facts4 t
  funext a; apply Fin.ext
  match a with
  | ⟨0, _⟩ => show win4_3.index t (0 : Fin 2) * 5000 + 1 * r.val = p.val; omega
  | ⟨1, _⟩ => show win4_3.index t (1 : Fin 2) * 128 + 1 * q.val = q.val; omega

section
variable (V : (c : Dev nD) → (b : Ref sig .tc) → Buf (Elt Ideal) ((c : Thread nD τ).loc b))

/-- The features' block at point t, read at an entry, is the array at the entry's row of the array. -/
theorem blk4_0_apply (c : Dev nD) (t : Fin cfg4.N) (r : Fin 5000) (k : Fin 128) (p : Fin 100000) (hp : p.val = t.val * 5000 + r.val) :
    (iblk4 (F := Ideal) V c 0 t (ix2 r k) : EReal) = (V c main_v43 : S100000x128.Idx → EReal) (ix2 p k) := by
  show (V c main_v43 : S100000x128.Idx → EReal) (((cfg4.win 0).blk t).view.emb (ix2 r k)) = _
  rw [emb4_0 t r k p hp]

/-- The weights' block is the weights. -/
theorem blk4_1_apply (c : Dev nD) (t : Fin cfg4.N) (k : Fin 128) (q : Fin 128) :
    (iblk4 (F := Ideal) V c 1 t (ix2 k q) : EReal) = (V c main_arg6 : S128x128.Idx → EReal) (ix2 k q) := by
  show (V c main_arg6 : S128x128.Idx → EReal) (((cfg4.win 1).blk t).view.emb (ix2 k q)) = _
  rw [emb4_1 t k q]

/-- The scale column's block at point t, read at a row, is the column at the row of the array. -/
theorem blk4_2_apply (c : Dev nD) (t : Fin cfg4.N) (r : Fin 5000) (p : Fin 100000) (hp : p.val = t.val * 5000 + r.val) :
    (iblk4 (F := Ideal) V c 2 t (ix2 r (0 : Fin 1)) : EReal) = (V c main_v17 : S100000x1.Idx → EReal) (ix2 p (0 : Fin 1)) := by
  show (V c main_v17 : S100000x1.Idx → EReal) (((cfg4.win 2).blk t).view.emb (ix2 r (0 : Fin 1))) = _
  rw [emb4_2 t r p hp]

/-- What grid point t writes back is block t of the whole-array function of the arrays the region finds. -/
theorem flushed4_eq (c : Dev nD) (t : Fin cfg4.N) :
    (dat4 (F := Ideal) V c).flushed 3 t
      = ((cfg4.win 3).blk t).view.read (Elt Ideal) (Val.mmsI (V c main_v43) (V c main_arg6) (V c main_v17)) := by
  show (cfg4.win 3).cut (grid4.coords t) ((dat4 V c).after 3 t) = _
  rw [after4_3]
  unfold out4_3
  rw [View.canon_unit_zero zero_off]
  simp only [View.ld_unit_zero (S := S5000x128) zero_off, View.ld_unit_zero (S := S128x128) zero_off, View.ld_unit_zero (S := S5000x1) zero_off]
  have ht : t.val < 20 := lt_of_lt_of_eq t.isLt N_4
  funext j
  obtain ⟨r, q, rfl⟩ : ∃ (r : Fin 5000) (q : Fin 128), j = ix2 r q := ⟨j 0, j 1, eq_ix2 j⟩
  obtain ⟨p, hp⟩ : ∃ p : Fin 100000, p.val = t.val * 5000 + r.val := ⟨⟨t.val * 5000 + r.val, by have := r.isLt; omega⟩, rfl⟩
  show k4_pay1 (F := Ideal) (iblk4 V c 0 t) (iblk4 V c 1 t) (iblk4 V c 2 t) (ix2 r q)
      = Val.mmsI (V c main_v43) (V c main_arg6) (V c main_v17) (((cfg4.win 3).blk t).view.emb (ix2 r q))
  refine (pay4_apply (iblk4 V c 0 t) (iblk4 V c 1 t) (iblk4 V c 2 t) r q).trans ?_
  rw [emb4_3 t r q p hp, Val.mmsI_apply]
  exact congrArg₂ (· * ·)
    (Finset.sum_congr rfl fun k _ => congrArg₂ (· * ·) (blk4_0_apply V c t r k p hp) (blk4_1_apply V c t k q))
    (blk4_2_apply V c t r p hp)

end

/-- An index of the array is in point t's block iff each coordinate is in the block's range on its axis. -/
theorem mem_blk4 (t : Fin cfg4.N) (i : S100000x128.Idx) :
    i ∈ ((cfg4.win 3).blk t).view.set ↔ ∀ a : Fin 2, win4_3.index t a * S5000x128.size a ≤ (i a).val ∧ (i a).val < win4_3.index t a * S5000x128.size a + S5000x128.size a := by
  show i ∈ ((View.whole main_v44).slice (win4_3.rect t)).set ↔ _
  rw [View.set_slice_whole, Rect.mem_set_unit]
  exact Iff.rfl

/-- Every row is in the block of the grid point row / 5000. -/
theorem cover4 (i : S100000x128.Idx) :
    ∃ t : Fin cfg4.N, (cfg4.win 3).flush t = true ∧ i ∈ ((cfg4.win 3).blk t).view.set := by
  have hi0 : (i 0).val < 100000 := (i 0).isLt
  have hi1 : (i 1).val < 128 := (i 1).isLt
  obtain ⟨t, ht⟩ : ∃ t : Fin cfg4.N, t.val = (i 0).val / 5000 :=
    ⟨⟨(i 0).val / 5000, by rw [show cfg4.N = 20 from N_4]; omega⟩, rfl⟩
  obtain ⟨-, -, -, -, -, -, e0, e1⟩ := idx_facts4 t
  refine ⟨t, flush4_3 t, ?_⟩
  rw [mem_blk4]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 128 ≤ (i 1).val ∧ (i 1).val < win4_3.index t (1 : Fin 2) * 128 + 128; omega

/-- The result array of region 4 after its write-backs, as a whole-array function of the arrays it finds. -/
theorem region4 (V : (c : Dev nD) → (b : Ref sig .tc) → Buf (Elt Ideal) ((c : Thread nD τ).loc b)) (c : Dev nD) :
    (dat4 (F := Ideal) V c).arrAt 3 cfg4.N = Val.mmsI (V c main_v43) (V c main_arg6) (V c main_v17) :=
  (dat4 V c).arrAt_eq_of_cover 3 (Val.mmsI (V c main_v43) (V c main_arg6) (V c main_v17))
    (fun t _ => flushed4_eq V c t) cover4

/-! ## Region 5: scale, then bias -/

/-- The payload of the body at an entry of the block. -/
theorem pay5_apply (x0 : Vec Ideal S5000x128 .f32) (x1 : Vec Ideal S5000x1 .f32) (x2 : Vec Ideal S1x128 .f32)
    (r : Fin 5000) (q : Fin 128) :
    k5_pay1 (F := Ideal) x0 x1 x2 (ix2 r q) = x0 (ix2 r q) * x1 (ix2 r (0 : Fin 1)) + x2 (ix2 (0 : Fin 1) q) := by
  unfold k5_pay1
  show shapeCast S5000x128 x0 shapeCasts_S5000x128_S5000x128 (ix2 r q)
        * broadcastTo S5000x128 (shapeCast S5000x1 x1 shapeCasts_S5000x1_S5000x1) broadcasts_S5000x1_S5000x128 (ix2 r q)
      + broadcastTo S5000x128 (shapeCast S1x128 x2 shapeCasts_S1x128_S1x128) broadcasts_S1x128_S5000x128 (ix2 r q) = _
  rw [shapeCast_self, shapeCast_self, shapeCast_self, bcast_col_apply, bcast_row_apply]

/-- The printed index maps, decided over the grid: the row blocks move with the grid point, the bias row stays. -/
theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- Row r of block t of the aggregated rows is row 5000 t + r of the array. -/
theorem emb5_0 (t : Fin cfg5.N) (r : Fin 5000) (q : Fin 128) (p : Fin 100000) (hp : p.val = t.val * 5000 + r.val) :
    ((cfg5.win 0).blk t).view.emb (ix2 r q) = (ix2 p q : S100000x128.Idx) := by
  obtain ⟨e0, e1, -, -, -, -, -, -⟩ := idx_facts5 t
  funext a; apply Fin.ext
  match a with
  | ⟨0, _⟩ => show win5_0.index t (0 : Fin 2) * 5000 + 1 * r.val = p.val; omega
  | ⟨1, _⟩ => show win5_0.index t (1 : Fin 2) * 128 + 1 * q.val = q.val; omega

/-- Row r of block t of the scale column is row 5000 t + r of the column. -/
theorem emb5_1 (t : Fin cfg5.N) (r : Fin 5000) (p : Fin 100000) (hp : p.val = t.val * 5000 + r.val) :
    ((cfg5.win 1).blk t).view.emb (ix2 r (0 : Fin 1)) = (ix2 p (0 : Fin 1) : S100000x1.Idx) := by
  obtain ⟨-, -, e0, e1, -, -, -, -⟩ := idx_facts5 t
  funext a; apply Fin.ext
  match a with
  | ⟨0, _⟩ => show win5_1.index t (0 : Fin 2) * 5000 + 1 * r.val = p.val; omega
  | ⟨1, _⟩ => show win5_1.index t (1 : Fin 2) * 1 + 1 * (0 : Fin 1).val = (0 : Fin 1).val; rw [e1]; rfl

/-- The bias row's one block is the whole row. -/
theorem emb5_2 (t : Fin cfg5.N) (q : Fin 128) :
    ((cfg5.win 2).blk t).view.emb (ix2 (0 : Fin 1) q) = (ix2 (0 : Fin 1) q : S1x128.Idx) := by
  obtain ⟨-, -, -, -, e0, e1, -, -⟩ := idx_facts5 t
  funext a; apply Fin.ext
  match a with
  | ⟨0, _⟩ => show win5_2.index t (0 : Fin 2) * 1 + 1 * (0 : Fin 1).val = (0 : Fin 1).val; rw [e0]; rfl
  | ⟨1, _⟩ => show win5_2.index t (1 : Fin 2) * 128 + 1 * q.val = q.val; omega

/-- Row r of block t of the result is row 5000 t + r of the array. -/
theorem emb5_3 (t : Fin cfg5.N) (r : Fin 5000) (q : Fin 128) (p : Fin 100000) (hp : p.val = t.val * 5000 + r.val) :
    ((cfg5.win 3).blk t).view.emb (ix2 r q) = (ix2 p q : S100000x128.Idx) := by
  obtain ⟨-, -, -, -, -, -, e0, e1⟩ := idx_facts5 t
  funext a; apply Fin.ext
  match a with
  | ⟨0, _⟩ => show win5_3.index t (0 : Fin 2) * 5000 + 1 * r.val = p.val; omega
  | ⟨1, _⟩ => show win5_3.index t (1 : Fin 2) * 128 + 1 * q.val = q.val; omega

section
variable (V : (c : Dev nD) → (b : Ref sig .tc) → Buf (Elt Ideal) ((c : Thread nD τ).loc b))

/-- The aggregated rows' block at point t, read at an entry, is the array at the entry's row of the array. -/
theorem blk5_0_apply (c : Dev nD) (t : Fin cfg5.N) (r : Fin 5000) (q : Fin 128) (p : Fin 100000) (hp : p.val = t.val * 5000 + r.val) :
    (iblk5 (F := Ideal) V c 0 t (ix2 r q) : EReal) = (V c main_v54 : S100000x128.Idx → EReal) (ix2 p q) := by
  show (V c main_v54 : S100000x128.Idx → EReal) (((cfg5.win 0).blk t).view.emb (ix2 r q)) = _
  rw [emb5_0 t r q p hp]

/-- The scale column's block at point t, read at a row, is the column at the row of the array. -/
theorem blk5_1_apply (c : Dev nD) (t : Fin cfg5.N) (r : Fin 5000) (p : Fin 100000) (hp : p.val = t.val * 5000 + r.val) :
    (iblk5 (F := Ideal) V c 1 t (ix2 r (0 : Fin 1)) : EReal) = (V c main_v17 : S100000x1.Idx → EReal) (ix2 p (0 : Fin 1)) := by
  show (V c main_v17 : S100000x1.Idx → EReal) (((cfg5.win 1).blk t).view.emb (ix2 r (0 : Fin 1))) = _
  rw [emb5_1 t r p hp]

/-- The bias row's block is the bias row. -/
theorem blk5_2_apply (c : Dev nD) (t : Fin cfg5.N) (q : Fin 128) :
    (iblk5 (F := Ideal) V c 2 t (ix2 (0 : Fin 1) q) : EReal) = (V c main_v55 : S1x128.Idx → EReal) (ix2 (0 : Fin 1) q) := by
  show (V c main_v55 : S1x128.Idx → EReal) (((cfg5.win 2).blk t).view.emb (ix2 (0 : Fin 1) q)) = _
  rw [emb5_2 t q]

/-- What grid point t writes back is block t of the whole-array function of the arrays the region finds. -/
theorem flushed5_eq (c : Dev nD) (t : Fin cfg5.N) :
    (dat5 (F := Ideal) V c).flushed 3 t
      = ((cfg5.win 3).blk t).view.read (Elt Ideal) (Val.bsaLin (V c main_v54) (V c main_v17) (V c main_v55)) := by
  show (cfg5.win 3).cut (grid5.coords t) ((dat5 V c).after 3 t) = _
  rw [after5_3]
  unfold out5_3
  rw [View.canon_unit_zero zero_off]
  simp only [View.ld_unit_zero (S := S5000x128) zero_off, View.ld_unit_zero (S := S5000x1) zero_off, View.ld_unit_zero (S := S1x128) zero_off]
  have ht : t.val < 20 := lt_of_lt_of_eq t.isLt N_5
  funext j
  obtain ⟨r, q, rfl⟩ : ∃ (r : Fin 5000) (q : Fin 128), j = ix2 r q := ⟨j 0, j 1, eq_ix2 j⟩
  obtain ⟨p, hp⟩ : ∃ p : Fin 100000, p.val = t.val * 5000 + r.val := ⟨⟨t.val * 5000 + r.val, by have := r.isLt; omega⟩, rfl⟩
  show k5_pay1 (F := Ideal) (iblk5 V c 0 t) (iblk5 V c 1 t) (iblk5 V c 2 t) (ix2 r q)
      = Val.bsaLin (V c main_v54) (V c main_v17) (V c main_v55) (((cfg5.win 3).blk t).view.emb (ix2 r q))
  refine (pay5_apply (iblk5 V c 0 t) (iblk5 V c 1 t) (iblk5 V c 2 t) r q).trans ?_
  rw [emb5_3 t r q p hp, Val.bsaLin_apply]
  exact congrArg₂ (· + ·)
    (congrArg₂ (· * ·) (blk5_0_apply V c t r q p hp) (blk5_1_apply V c t r p hp))
    (blk5_2_apply V c t q)

end

/-- An index of the array is in point t's block iff each coordinate is in the block's range on its axis. -/
theorem mem_blk5 (t : Fin cfg5.N) (i : S100000x128.Idx) :
    i ∈ ((cfg5.win 3).blk t).view.set ↔ ∀ a : Fin 2, win5_3.index t a * S5000x128.size a ≤ (i a).val ∧ (i a).val < win5_3.index t a * S5000x128.size a + S5000x128.size a := by
  show i ∈ ((View.whole main_v56).slice (win5_3.rect t)).set ↔ _
  rw [View.set_slice_whole, Rect.mem_set_unit]
  exact Iff.rfl

/-- Every row is in the block of the grid point row / 5000. -/
theorem cover5 (i : S100000x128.Idx) :
    ∃ t : Fin cfg5.N, (cfg5.win 3).flush t = true ∧ i ∈ ((cfg5.win 3).blk t).view.set := by
  have hi0 : (i 0).val < 100000 := (i 0).isLt
  have hi1 : (i 1).val < 128 := (i 1).isLt
  obtain ⟨t, ht⟩ : ∃ t : Fin cfg5.N, t.val = (i 0).val / 5000 :=
    ⟨⟨(i 0).val / 5000, by rw [show cfg5.N = 20 from N_5]; omega⟩, rfl⟩
  obtain ⟨-, -, -, -, -, -, e0, e1⟩ := idx_facts5 t
  refine ⟨t, flush5_3 t, ?_⟩
  rw [mem_blk5]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 128 ≤ (i 1).val ∧ (i 1).val < win5_3.index t (1 : Fin 2) * 128 + 128; omega

/-- The result array of region 5 after its write-backs, as a whole-array function of the arrays it finds. -/
theorem region5 (V : (c : Dev nD) → (b : Ref sig .tc) → Buf (Elt Ideal) ((c : Thread nD τ).loc b)) (c : Dev nD) :
    (dat5 (F := Ideal) V c).arrAt 3 cfg5.N = Val.bsaLin (V c main_v54) (V c main_v17) (V c main_v55) :=
  (dat5 V c).arrAt_eq_of_cover 3 (Val.bsaLin (V c main_v54) (V c main_v17) (V c main_v55))
    (fun t _ => flushed5_eq V c t) cover5

end Cert.KernelIdeal.RegionVal

end
-- ==== Proof.LibTypedRef.lean ====
/-
  Typed references: carrying contents to the buffer's type and back is the identity.

  A host function called from @main is printed over TYPED references (a reference together with the fact that its
  buffer's type is the value's type); each of its operations carries its result to the buffer's type (`toBuf`) and
  each operand back (`ofBuf`), both transports along that fact. Read back, a line of such operations therefore leaves
  `x.ofBuf (x.toBuf v)` around every intermediate value. The pair is the identity for ANY typed reference, seen by
  taking the reference apart (the fact becomes `rfl` and both transports vanish) — no buffer type is ever computed.
  Rewriting with it collapses the pairs bottom-up, where comparing the two sides by unfolding has to open one transport
  inside the other at every level (a function of fifteen operations was out of reach that way).
-/
import Idealize.ShloMosaic.Lib.StableHlo

namespace Cert.LibTypedRef

open Idealize.ShloMosaic Idealize.ShloMosaic.StableHlo

/-- Contents carried to a typed reference's buffer type and back are unchanged. General: any signature, any value
    type, any element family. Use: `simp only [Cert.LibTypedRef.ofBuf_toBuf]` after reading a line of host operations
    that contains a called function's operations, before closing the equation. -/
theorem ofBuf_toBuf {sig : RefSig} {T : BufTy} {Val : EltTy → Type} (x : TRef sig T) (v : T.Contents Val) :
    x.ofBuf (x.toBuf v) = v := by
  obtain ⟨r, rfl, _, _⟩ := x
  rfl

end Cert.LibTypedRef
-- ==== Proof.KFold.lean ====
import proofs.«161498_j6167573037327_2_alg».proof.Proof.Gen.KernelIdeal.Frame
import proofs.«161498_j6167573037327_2_alg».proof.Proof.KTerm
import proofs.«161498_j6167573037327_2_alg».proof.Proof.LibTypedRef

/-!
# The kernel program's result buffer holds the three-layer composition

The contents of the buffers at each boundary of the program — after a stretch of host operations, after a
region's write-backs — are read one boundary at a time. The index vectors, the node scale and the argument
arrays are carried unchanged to where they are read; a projection region leaves (X·W)·d, an aggregation
stretch the scatter-add of the gathered rows, a bias region (A·d + b) with or without the maximum with zero.
The six regions' output arrays as whole-array functions of their entry contents are hypotheses here.
-/

set_option maxRecDepth 16384

noncomputable section

namespace Cert.KernelIdeal.Fold

open Cert.KernelIdeal Cert.KernelIdeal.Gen
open Idealize.ShloMosaic Idealize.ShloMosaic.TcCoe Idealize.ShloMosaic.StableHlo
open Idealize.SL.Sem
open Idealize.ShloMosaic.Pipeline (Dat Cfg Window)

variable (m : (ℓ : Loc nD τ sig) → Buf (Elt Ideal) ℓ) (ρ : Dev nD → PrngReg)

set_option maxHeartbeats 4000000 in
/-- The edge list as launched. -/
abbrev EI (c : Dev nD) : (⟨S2x1600000, .i32⟩ : BufTy).Contents (Elt Ideal) := m ((c : Thread nD τ).loc main_arg1)

/-! ## What is carried: the index vectors, the node scale, the arguments -/

set_option maxHeartbeats 4000000 in
theorem W3_v3 (c : Dev nD) : W3 m ρ c (Proc.devRef .tc main_v3) = Val.rowIdx (F := Ideal) (EI m c) := by
  show StableHlo.after hostOps0_2 (StableHlo.after hostOps0_1 (StableHlo.after hostOps0 (W0 m ρ c))) (Proc.devRef .tc main_v3) = _
  after_results <;> rfl

set_option maxHeartbeats 4000000 in
theorem W3_v6 (c : Dev nD) : W3 m ρ c (Proc.devRef .tc main_v6) = Val.colIdx (F := Ideal) (EI m c) := by
  show StableHlo.after hostOps0_2 (StableHlo.after hostOps0_1 (StableHlo.after hostOps0 (W0 m ρ c))) (Proc.devRef .tc main_v6) = _
  after_results <;> rfl

/-! ### The node scale, one stretch at a time -/

set_option maxHeartbeats 4000000 in
/-- The degrees, after the first stretch. -/
theorem W1_v10 (c : Dev nD) : W1 m ρ c (Proc.devRef .tc main_v10) = Val.degv (F := Ideal) (EI m c) := by
  show StableHlo.after hostOps0 (W0 m ρ c) (Proc.devRef .tc main_v10) = _
  after_results <;> rfl

set_option maxHeartbeats 4000000 in
/-- The test deg > 0, in terms of the degrees. -/
theorem W1_v12 (c : Dev nD) : W1 m ρ c (Proc.devRef .tc main_v12)
    = cmpf (F := Ideal) .ogt (W1 m ρ c (Proc.devRef .tc main_v10)) (broadcastInDim S100000 ![] bcast_S_S100000 (constant (F := Ideal) S_ .f32 0x00000000#32)) := by
  show StableHlo.after hostOps0 (W0 m ρ c) (Proc.devRef .tc main_v12)
    = cmpf (F := Ideal) .ogt (StableHlo.after hostOps0 (W0 m ρ c) (Proc.devRef .tc main_v10)) _
  generalize W0 m ρ c = V0
  after_results <;> rfl

set_option maxHeartbeats 4000000 in
/-- 1/√(max(deg, 1)), in terms of the degrees. -/
theorem W1_v15 (c : Dev nD) : W1 m ρ c (Proc.devRef .tc main_v15)
    = Host.rsqrt (F := Ideal) (maximumf (W1 m ρ c (Proc.devRef .tc main_v10)) (broadcastInDim S100000 ![] bcast_S_S100000 (constant (F := Ideal) S_ .f32 0x3F800000#32))) := by
  show StableHlo.after hostOps0 (W0 m ρ c) (Proc.devRef .tc main_v15)
    = Host.rsqrt (F := Ideal) (maximumf (StableHlo.after hostOps0 (W0 m ρ c) (Proc.devRef .tc main_v10)) _)
  generalize W0 m ρ c = V0
  after_results <;> rfl

set_option maxHeartbeats 4000000 in
/-- The zero the selection falls back to. -/
theorem W1_cst3 (c : Dev nD) : W1 m ρ c (Proc.devRef .tc main_cst_3) = constant (F := Ideal) S_ .f32 0x00000000#32 := by
  show StableHlo.after hostOps0 (W0 m ρ c) (Proc.devRef .tc main_cst_3) = _
  generalize W0 m ρ c = V0
  after_results <;> rfl

set_option maxHeartbeats 4000000 in
/-- The selection, in terms of what the first stretch left. -/
theorem W2_v16 (c : Dev nD) : W2 m ρ c (Proc.devRef .tc main_v16)
    = select (W1 m ρ c (Proc.devRef .tc main_v12)) (W1 m ρ c (Proc.devRef .tc main_v15))
        (broadcastInDim S100000 ![] bcast_S_S100000 (id (W1 m ρ c (Proc.devRef .tc main_cst_3)))) := by
  show StableHlo.after hostOps0_1 (W1 m ρ c) (Proc.devRef .tc main_v16) = _
  generalize W1 m ρ c = V1
  after_results
  simp only [Cert.LibTypedRef.ofBuf_toBuf]
  rfl

set_option maxHeartbeats 4000000 in
/-- The column layout of the scale, in terms of the selection. -/
theorem W3_v17_step (c : Dev nD) : W3 m ρ c (Proc.devRef .tc main_v17)
    = shapeCast S100000x1 (W2 m ρ c (Proc.devRef .tc main_v16)) shapeCasts_S100000_S100000x1 := by
  show StableHlo.after hostOps0_2 (W2 m ρ c) (Proc.devRef .tc main_v17) = _
  generalize W2 m ρ c = V2
  after_results <;> rfl

/-- The node scale as a column, at the first region's entry. -/
theorem W3_v17 (c : Dev nD) : W3 m ρ c (Proc.devRef .tc main_v17) = Val.dcol (F := Ideal) (EI m c) := by
  rw [W3_v17_step, W2_v16, W1_v12, W1_v15, W1_cst3, W1_v10]
  rfl

set_option maxHeartbeats 4000000 in
theorem W3_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results <;> rfl

set_option maxHeartbeats 4000000 in
theorem W3_arg2 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results <;> rfl

set_option maxHeartbeats 4000000 in
theorem W3_arg3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results <;> rfl

set_option maxHeartbeats 4000000 in
theorem W3_arg4 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results <;> rfl

set_option maxHeartbeats 4000000 in
theorem W3_arg5 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results <;> rfl

set_option maxHeartbeats 4000000 in
theorem W3_arg6 (c : Dev nD) : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_results <;> rfl

set_option maxHeartbeats 4000000 in
theorem W3_arg7 (c : Dev nD) : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  after_results <;> rfl

theorem W4_v3 (c : Dev nD) : W4 m ρ c (Proc.devRef .tc main_v3) = Val.rowIdx (F := Ideal) (EI m c) :=
  (show W4 m ρ c (Proc.devRef .tc main_v3) = W3 m ρ c (Proc.devRef .tc main_v3) from W4_of_ne m ρ c main_v3 (by decide)).trans (W3_v3 m ρ c)

set_option maxHeartbeats 4000000 in
theorem W5_v3 (c : Dev nD) : W5 m ρ c (Proc.devRef .tc main_v3) = Val.rowIdx (F := Ideal) (EI m c) :=
  (show W5 m ρ c (Proc.devRef .tc main_v3) = W4 m ρ c (Proc.devRef .tc main_v3) from by
  show StableHlo.after hostOps1 (W4 m ρ c) (Proc.devRef .tc main_v3) = W4 m ρ c (Proc.devRef .tc main_v3)
  after_results <;> rfl).trans (W4_v3 m ρ c)

theorem W6_v3 (c : Dev nD) : W6 m ρ c (Proc.devRef .tc main_v3) = Val.rowIdx (F := Ideal) (EI m c) :=
  (show W6 m ρ c (Proc.devRef .tc main_v3) = W5 m ρ c (Proc.devRef .tc main_v3) from W6_of_ne m ρ c main_v3 (by decide)).trans (W5_v3 m ρ c)

theorem W7_v3 (c : Dev nD) : W7 m ρ c (Proc.devRef .tc main_v3) = Val.rowIdx (F := Ideal) (EI m c) :=
  (show W7 m ρ c (Proc.devRef .tc main_v3) = W6 m ρ c (Proc.devRef .tc main_v3) from W7_of_ne m ρ c main_v3 (by decide)).trans (W6_v3 m ρ c)

set_option maxHeartbeats 4000000 in
theorem W8_v3 (c : Dev nD) : W8 m ρ c (Proc.devRef .tc main_v3) = Val.rowIdx (F := Ideal) (EI m c) :=
  (show W8 m ρ c (Proc.devRef .tc main_v3) = W7 m ρ c (Proc.devRef .tc main_v3) from by
  show StableHlo.after hostOps3 (W7 m ρ c) (Proc.devRef .tc main_v3) = W7 m ρ c (Proc.devRef .tc main_v3)
  after_results <;> rfl).trans (W7_v3 m ρ c)

theorem W9_v3 (c : Dev nD) : W9 m ρ c (Proc.devRef .tc main_v3) = Val.rowIdx (F := Ideal) (EI m c) :=
  (show W9 m ρ c (Proc.devRef .tc main_v3) = W8 m ρ c (Proc.devRef .tc main_v3) from W9_of_ne m ρ c main_v3 (by decide)).trans (W8_v3 m ρ c)

theorem W10_v3 (c : Dev nD) : W10 m ρ c (Proc.devRef .tc main_v3) = Val.rowIdx (F := Ideal) (EI m c) :=
  (show W10 m ρ c (Proc.devRef .tc main_v3) = W9 m ρ c (Proc.devRef .tc main_v3) from W10_of_ne m ρ c main_v3 (by decide)).trans (W9_v3 m ρ c)

theorem W4_v6 (c : Dev nD) : W4 m ρ c (Proc.devRef .tc main_v6) = Val.colIdx (F := Ideal) (EI m c) :=
  (show W4 m ρ c (Proc.devRef .tc main_v6) = W3 m ρ c (Proc.devRef .tc main_v6) from W4_of_ne m ρ c main_v6 (by decide)).trans (W3_v6 m ρ c)

set_option maxHeartbeats 4000000 in
theorem W5_v6 (c : Dev nD) : W5 m ρ c (Proc.devRef .tc main_v6) = Val.colIdx (F := Ideal) (EI m c) :=
  (show W5 m ρ c (Proc.devRef .tc main_v6) = W4 m ρ c (Proc.devRef .tc main_v6) from by
  show StableHlo.after hostOps1 (W4 m ρ c) (Proc.devRef .tc main_v6) = W4 m ρ c (Proc.devRef .tc main_v6)
  after_results <;> rfl).trans (W4_v6 m ρ c)

theorem W6_v6 (c : Dev nD) : W6 m ρ c (Proc.devRef .tc main_v6) = Val.colIdx (F := Ideal) (EI m c) :=
  (show W6 m ρ c (Proc.devRef .tc main_v6) = W5 m ρ c (Proc.devRef .tc main_v6) from W6_of_ne m ρ c main_v6 (by decide)).trans (W5_v6 m ρ c)

theorem W7_v6 (c : Dev nD) : W7 m ρ c (Proc.devRef .tc main_v6) = Val.colIdx (F := Ideal) (EI m c) :=
  (show W7 m ρ c (Proc.devRef .tc main_v6) = W6 m ρ c (Proc.devRef .tc main_v6) from W7_of_ne m ρ c main_v6 (by decide)).trans (W6_v6 m ρ c)

set_option maxHeartbeats 4000000 in
theorem W8_v6 (c : Dev nD) : W8 m ρ c (Proc.devRef .tc main_v6) = Val.colIdx (F := Ideal) (EI m c) :=
  (show W8 m ρ c (Proc.devRef .tc main_v6) = W7 m ρ c (Proc.devRef .tc main_v6) from by
  show StableHlo.after hostOps3 (W7 m ρ c) (Proc.devRef .tc main_v6) = W7 m ρ c (Proc.devRef .tc main_v6)
  after_results <;> rfl).trans (W7_v6 m ρ c)

theorem W9_v6 (c : Dev nD) : W9 m ρ c (Proc.devRef .tc main_v6) = Val.colIdx (F := Ideal) (EI m c) :=
  (show W9 m ρ c (Proc.devRef .tc main_v6) = W8 m ρ c (Proc.devRef .tc main_v6) from W9_of_ne m ρ c main_v6 (by decide)).trans (W8_v6 m ρ c)

theorem W10_v6 (c : Dev nD) : W10 m ρ c (Proc.devRef .tc main_v6) = Val.colIdx (F := Ideal) (EI m c) :=
  (show W10 m ρ c (Proc.devRef .tc main_v6) = W9 m ρ c (Proc.devRef .tc main_v6) from W10_of_ne m ρ c main_v6 (by decide)).trans (W9_v6 m ρ c)

theorem W4_v17 (c : Dev nD) : W4 m ρ c (Proc.devRef .tc main_v17) = Val.dcol (F := Ideal) (EI m c) :=
  (show W4 m ρ c (Proc.devRef .tc main_v17) = W3 m ρ c (Proc.devRef .tc main_v17) from (W4_arr m ρ c 2).trans (((dat0 (V3 m ρ) c).arrAt_in 2 rfl _).trans (A_eq0 (V3 m ρ) c 2))).trans (W3_v17 m ρ c)

set_option maxHeartbeats 4000000 in
theorem W5_v17 (c : Dev nD) : W5 m ρ c (Proc.devRef .tc main_v17) = Val.dcol (F := Ideal) (EI m c) :=
  (show W5 m ρ c (Proc.devRef .tc main_v17) = W4 m ρ c (Proc.devRef .tc main_v17) from by
  show StableHlo.after hostOps1 (W4 m ρ c) (Proc.devRef .tc main_v17) = W4 m ρ c (Proc.devRef .tc main_v17)
  after_results <;> rfl).trans (W4_v17 m ρ c)

theorem W6_v17 (c : Dev nD) : W6 m ρ c (Proc.devRef .tc main_v17) = Val.dcol (F := Ideal) (EI m c) :=
  (show W6 m ρ c (Proc.devRef .tc main_v17) = W5 m ρ c (Proc.devRef .tc main_v17) from (W6_arr m ρ c 1).trans (((dat1 (V5 m ρ) c).arrAt_in 1 rfl _).trans (A_eq1 (V5 m ρ) c 1))).trans (W5_v17 m ρ c)

theorem W7_v17 (c : Dev nD) : W7 m ρ c (Proc.devRef .tc main_v17) = Val.dcol (F := Ideal) (EI m c) :=
  (show W7 m ρ c (Proc.devRef .tc main_v17) = W6 m ρ c (Proc.devRef .tc main_v17) from (W7_arr m ρ c 2).trans (((dat2 (V6 m ρ) c).arrAt_in 2 rfl _).trans (A_eq2 (V6 m ρ) c 2))).trans (W6_v17 m ρ c)

set_option maxHeartbeats 4000000 in
theorem W8_v17 (c : Dev nD) : W8 m ρ c (Proc.devRef .tc main_v17) = Val.dcol (F := Ideal) (EI m c) :=
  (show W8 m ρ c (Proc.devRef .tc main_v17) = W7 m ρ c (Proc.devRef .tc main_v17) from by
  show StableHlo.after hostOps3 (W7 m ρ c) (Proc.devRef .tc main_v17) = W7 m ρ c (Proc.devRef .tc main_v17)
  after_results <;> rfl).trans (W7_v17 m ρ c)

theorem W9_v17 (c : Dev nD) : W9 m ρ c (Proc.devRef .tc main_v17) = Val.dcol (F := Ideal) (EI m c) :=
  (show W9 m ρ c (Proc.devRef .tc main_v17) = W8 m ρ c (Proc.devRef .tc main_v17) from (W9_arr m ρ c 1).trans (((dat3 (V8 m ρ) c).arrAt_in 1 rfl _).trans (A_eq3 (V8 m ρ) c 1))).trans (W8_v17 m ρ c)

theorem W10_v17 (c : Dev nD) : W10 m ρ c (Proc.devRef .tc main_v17) = Val.dcol (F := Ideal) (EI m c) :=
  (show W10 m ρ c (Proc.devRef .tc main_v17) = W9 m ρ c (Proc.devRef .tc main_v17) from (W10_arr m ρ c 2).trans (((dat4 (V9 m ρ) c).arrAt_in 2 rfl _).trans (A_eq4 (V9 m ρ) c 2))).trans (W9_v17 m ρ c)

set_option maxHeartbeats 4000000 in
theorem W11_v17 (c : Dev nD) : W11 m ρ c (Proc.devRef .tc main_v17) = Val.dcol (F := Ideal) (EI m c) :=
  (show W11 m ρ c (Proc.devRef .tc main_v17) = W10 m ρ c (Proc.devRef .tc main_v17) from by
  show StableHlo.after hostOps5 (W10 m ρ c) (Proc.devRef .tc main_v17) = W10 m ρ c (Proc.devRef .tc main_v17)
  after_results <;> rfl).trans (W10_v17 m ρ c)

theorem W4_arg3 (c : Dev nD) : W4 m ρ c (Proc.devRef .tc main_arg3) = m ((c : Thread nD τ).loc main_arg3) :=
  (show W4 m ρ c (Proc.devRef .tc main_arg3) = W3 m ρ c (Proc.devRef .tc main_arg3) from W4_of_ne m ρ c main_arg3 (by decide)).trans (W3_arg3 m ρ c)

theorem W4_arg4 (c : Dev nD) : W4 m ρ c (Proc.devRef .tc main_arg4) = m ((c : Thread nD τ).loc main_arg4) :=
  (show W4 m ρ c (Proc.devRef .tc main_arg4) = W3 m ρ c (Proc.devRef .tc main_arg4) from W4_of_ne m ρ c main_arg4 (by decide)).trans (W3_arg4 m ρ c)

set_option maxHeartbeats 4000000 in
theorem W5_arg4 (c : Dev nD) : W5 m ρ c (Proc.devRef .tc main_arg4) = m ((c : Thread nD τ).loc main_arg4) :=
  (show W5 m ρ c (Proc.devRef .tc main_arg4) = W4 m ρ c (Proc.devRef .tc main_arg4) from by
  show StableHlo.after hostOps1 (W4 m ρ c) (Proc.devRef .tc main_arg4) = W4 m ρ c (Proc.devRef .tc main_arg4)
  after_results <;> rfl).trans (W4_arg4 m ρ c)

theorem W6_arg4 (c : Dev nD) : W6 m ρ c (Proc.devRef .tc main_arg4) = m ((c : Thread nD τ).loc main_arg4) :=
  (show W6 m ρ c (Proc.devRef .tc main_arg4) = W5 m ρ c (Proc.devRef .tc main_arg4) from W6_of_ne m ρ c main_arg4 (by decide)).trans (W5_arg4 m ρ c)

theorem W4_arg5 (c : Dev nD) : W4 m ρ c (Proc.devRef .tc main_arg5) = m ((c : Thread nD τ).loc main_arg5) :=
  (show W4 m ρ c (Proc.devRef .tc main_arg5) = W3 m ρ c (Proc.devRef .tc main_arg5) from W4_of_ne m ρ c main_arg5 (by decide)).trans (W3_arg5 m ρ c)

set_option maxHeartbeats 4000000 in
theorem W5_arg5 (c : Dev nD) : W5 m ρ c (Proc.devRef .tc main_arg5) = m ((c : Thread nD τ).loc main_arg5) :=
  (show W5 m ρ c (Proc.devRef .tc main_arg5) = W4 m ρ c (Proc.devRef .tc main_arg5) from by
  show StableHlo.after hostOps1 (W4 m ρ c) (Proc.devRef .tc main_arg5) = W4 m ρ c (Proc.devRef .tc main_arg5)
  after_results <;> rfl).trans (W4_arg5 m ρ c)

theorem W6_arg5 (c : Dev nD) : W6 m ρ c (Proc.devRef .tc main_arg5) = m ((c : Thread nD τ).loc main_arg5) :=
  (show W6 m ρ c (Proc.devRef .tc main_arg5) = W5 m ρ c (Proc.devRef .tc main_arg5) from W6_of_ne m ρ c main_arg5 (by decide)).trans (W5_arg5 m ρ c)

theorem W7_arg5 (c : Dev nD) : W7 m ρ c (Proc.devRef .tc main_arg5) = m ((c : Thread nD τ).loc main_arg5) :=
  (show W7 m ρ c (Proc.devRef .tc main_arg5) = W6 m ρ c (Proc.devRef .tc main_arg5) from W7_of_ne m ρ c main_arg5 (by decide)).trans (W6_arg5 m ρ c)

theorem W4_arg6 (c : Dev nD) : W4 m ρ c (Proc.devRef .tc main_arg6) = m ((c : Thread nD τ).loc main_arg6) :=
  (show W4 m ρ c (Proc.devRef .tc main_arg6) = W3 m ρ c (Proc.devRef .tc main_arg6) from W4_of_ne m ρ c main_arg6 (by decide)).trans (W3_arg6 m ρ c)

set_option maxHeartbeats 4000000 in
theorem W5_arg6 (c : Dev nD) : W5 m ρ c (Proc.devRef .tc main_arg6) = m ((c : Thread nD τ).loc main_arg6) :=
  (show W5 m ρ c (Proc.devRef .tc main_arg6) = W4 m ρ c (Proc.devRef .tc main_arg6) from by
  show StableHlo.after hostOps1 (W4 m ρ c) (Proc.devRef .tc main_arg6) = W4 m ρ c (Proc.devRef .tc main_arg6)
  after_results <;> rfl).trans (W4_arg6 m ρ c)

theorem W6_arg6 (c : Dev nD) : W6 m ρ c (Proc.devRef .tc main_arg6) = m ((c : Thread nD τ).loc main_arg6) :=
  (show W6 m ρ c (Proc.devRef .tc main_arg6) = W5 m ρ c (Proc.devRef .tc main_arg6) from W6_of_ne m ρ c main_arg6 (by decide)).trans (W5_arg6 m ρ c)

theorem W7_arg6 (c : Dev nD) : W7 m ρ c (Proc.devRef .tc main_arg6) = m ((c : Thread nD τ).loc main_arg6) :=
  (show W7 m ρ c (Proc.devRef .tc main_arg6) = W6 m ρ c (Proc.devRef .tc main_arg6) from W7_of_ne m ρ c main_arg6 (by decide)).trans (W6_arg6 m ρ c)

set_option maxHeartbeats 4000000 in
theorem W8_arg6 (c : Dev nD) : W8 m ρ c (Proc.devRef .tc main_arg6) = m ((c : Thread nD τ).loc main_arg6) :=
  (show W8 m ρ c (Proc.devRef .tc main_arg6) = W7 m ρ c (Proc.devRef .tc main_arg6) from by
  show StableHlo.after hostOps3 (W7 m ρ c) (Proc.devRef .tc main_arg6) = W7 m ρ c (Proc.devRef .tc main_arg6)
  after_results <;> rfl).trans (W7_arg6 m ρ c)

theorem W9_arg6 (c : Dev nD) : W9 m ρ c (Proc.devRef .tc main_arg6) = m ((c : Thread nD τ).loc main_arg6) :=
  (show W9 m ρ c (Proc.devRef .tc main_arg6) = W8 m ρ c (Proc.devRef .tc main_arg6) from W9_of_ne m ρ c main_arg6 (by decide)).trans (W8_arg6 m ρ c)

theorem W4_arg7 (c : Dev nD) : W4 m ρ c (Proc.devRef .tc main_arg7) = m ((c : Thread nD τ).loc main_arg7) :=
  (show W4 m ρ c (Proc.devRef .tc main_arg7) = W3 m ρ c (Proc.devRef .tc main_arg7) from W4_of_ne m ρ c main_arg7 (by decide)).trans (W3_arg7 m ρ c)

set_option maxHeartbeats 4000000 in
theorem W5_arg7 (c : Dev nD) : W5 m ρ c (Proc.devRef .tc main_arg7) = m ((c : Thread nD τ).loc main_arg7) :=
  (show W5 m ρ c (Proc.devRef .tc main_arg7) = W4 m ρ c (Proc.devRef .tc main_arg7) from by
  show StableHlo.after hostOps1 (W4 m ρ c) (Proc.devRef .tc main_arg7) = W4 m ρ c (Proc.devRef .tc main_arg7)
  after_results <;> rfl).trans (W4_arg7 m ρ c)

theorem W6_arg7 (c : Dev nD) : W6 m ρ c (Proc.devRef .tc main_arg7) = m ((c : Thread nD τ).loc main_arg7) :=
  (show W6 m ρ c (Proc.devRef .tc main_arg7) = W5 m ρ c (Proc.devRef .tc main_arg7) from W6_of_ne m ρ c main_arg7 (by decide)).trans (W5_arg7 m ρ c)

theorem W7_arg7 (c : Dev nD) : W7 m ρ c (Proc.devRef .tc main_arg7) = m ((c : Thread nD τ).loc main_arg7) :=
  (show W7 m ρ c (Proc.devRef .tc main_arg7) = W6 m ρ c (Proc.devRef .tc main_arg7) from W7_of_ne m ρ c main_arg7 (by decide)).trans (W6_arg7 m ρ c)

set_option maxHeartbeats 4000000 in
theorem W8_arg7 (c : Dev nD) : W8 m ρ c (Proc.devRef .tc main_arg7) = m ((c : Thread nD τ).loc main_arg7) :=
  (show W8 m ρ c (Proc.devRef .tc main_arg7) = W7 m ρ c (Proc.devRef .tc main_arg7) from by
  show StableHlo.after hostOps3 (W7 m ρ c) (Proc.devRef .tc main_arg7) = W7 m ρ c (Proc.devRef .tc main_arg7)
  after_results <;> rfl).trans (W7_arg7 m ρ c)

theorem W9_arg7 (c : Dev nD) : W9 m ρ c (Proc.devRef .tc main_arg7) = m ((c : Thread nD τ).loc main_arg7) :=
  (show W9 m ρ c (Proc.devRef .tc main_arg7) = W8 m ρ c (Proc.devRef .tc main_arg7) from W9_of_ne m ρ c main_arg7 (by decide)).trans (W8_arg7 m ρ c)

theorem W10_arg7 (c : Dev nD) : W10 m ρ c (Proc.devRef .tc main_arg7) = m ((c : Thread nD τ).loc main_arg7) :=
  (show W10 m ρ c (Proc.devRef .tc main_arg7) = W9 m ρ c (Proc.devRef .tc main_arg7) from W10_of_ne m ρ c main_arg7 (by decide)).trans (W9_arg7 m ρ c)

/-! ## The regions' outputs as whole-array functions of their entry contents (hypotheses) -/

/-- The six regions' output arrays, for any entry contents. -/
structure RegionVals : Prop where
  r0 : ∀ (V : (c : Dev nD) → (b : Ref sig .tc) → Buf (Elt Ideal) ((c : Thread nD τ).loc b)) (c : Dev nD),
    (dat0 (F := Ideal) V c).arrAt 3 cfg0.N = Val.mmsI (V c main_arg0) (V c main_arg2) (V c main_v17)
  r1 : ∀ (V : (c : Dev nD) → (b : Ref sig .tc) → Buf (Elt Ideal) ((c : Thread nD τ).loc b)) (c : Dev nD),
    (dat1 (F := Ideal) V c).arrAt 3 cfg1.N = Val.bsaRelu (V c main_v28) (V c main_v17) (V c main_v29)
  r2 : ∀ (V : (c : Dev nD) → (b : Ref sig .tc) → Buf (Elt Ideal) ((c : Thread nD τ).loc b)) (c : Dev nD),
    (dat2 (F := Ideal) V c).arrAt 3 cfg2.N = Val.mmsI (V c main_v30) (V c main_arg4) (V c main_v17)
  r3 : ∀ (V : (c : Dev nD) → (b : Ref sig .tc) → Buf (Elt Ideal) ((c : Thread nD τ).loc b)) (c : Dev nD),
    (dat3 (F := Ideal) V c).arrAt 3 cfg3.N = Val.bsaRelu (V c main_v41) (V c main_v17) (V c main_v42)
  r4 : ∀ (V : (c : Dev nD) → (b : Ref sig .tc) → Buf (Elt Ideal) ((c : Thread nD τ).loc b)) (c : Dev nD),
    (dat4 (F := Ideal) V c).arrAt 3 cfg4.N = Val.mmsI (V c main_v43) (V c main_arg6) (V c main_v17)
  r5 : ∀ (V : (c : Dev nD) → (b : Ref sig .tc) → Buf (Elt Ideal) ((c : Thread nD τ).loc b)) (c : Dev nD),
    (dat5 (F := Ideal) V c).arrAt 3 cfg5.N = Val.bsaLin (V c main_v54) (V c main_v17) (V c main_v55)

/-! ## The values, one boundary at a time -/

/-- After the first projection region: (x·W1)·d. -/
theorem W4_v18 (RV : RegionVals) (c : Dev nD) : W4 m ρ c (Proc.devRef .tc main_v18)
    = Val.mmsI (m ((c : Thread nD τ).loc main_arg0)) (m ((c : Thread nD τ).loc main_arg2)) (Val.dcol (F := Ideal) (EI m c)) := by
  refine ((W4_arr m ρ c 3).trans (RV.r0 (V3 m ρ) c)).trans ?_
  show Val.mmsI (W3 m ρ c (Proc.devRef .tc main_arg0)) (W3 m ρ c (Proc.devRef .tc main_arg2)) (W3 m ρ c (Proc.devRef .tc main_v17)) = _
  rw [W3_arg0, W3_arg2, W3_v17]

/-- A stretch of aggregation: the scatter-add, along the targets, of the rows gathered at the wrapped sources; and the
    bias laid out as a row. -/
theorem W5_v28 (c : Dev nD) : W5 m ρ c (Proc.devRef .tc main_v28) = Val.agg (F := Ideal) (W4 m ρ c (Proc.devRef .tc main_v18)) (EI m c) := by
  show StableHlo.after hostOps1 (W4 m ρ c) (Proc.devRef .tc main_v28) = _
  after_results
  rw [W4_v3, W4_v6]
  rfl
set_option maxHeartbeats 4000000 in
theorem W5_v29 (c : Dev nD) : W5 m ρ c (Proc.devRef .tc main_v29) = Val.brow (F := Ideal) (m ((c : Thread nD τ).loc main_arg3)) := by
  show StableHlo.after hostOps1 (W4 m ρ c) (Proc.devRef .tc main_v29) = _
  after_results
  rw [W4_arg3]
  rfl

/-- After the first bias region: the first layer. -/
theorem W6_v30 (RV : RegionVals) (c : Dev nD) : W6 m ρ c (Proc.devRef .tc main_v30)
    = Val.layerRelu (m ((c : Thread nD τ).loc main_arg0)) (m ((c : Thread nD τ).loc main_arg2)) (m ((c : Thread nD τ).loc main_arg3)) (EI m c) := by
  refine ((W6_arr m ρ c 3).trans (RV.r1 (V5 m ρ) c)).trans ?_
  show Val.bsaRelu (W5 m ρ c (Proc.devRef .tc main_v28)) (W5 m ρ c (Proc.devRef .tc main_v17)) (W5 m ρ c (Proc.devRef .tc main_v29)) = _
  rw [W5_v28, W5_v29, W5_v17, W4_v18 m ρ RV]
  rfl

/-- After the second projection region. -/
theorem W7_v31 (RV : RegionVals) (c : Dev nD) : W7 m ρ c (Proc.devRef .tc main_v31)
    = Val.mmsI (Val.layerRelu (m ((c : Thread nD τ).loc main_arg0)) (m ((c : Thread nD τ).loc main_arg2)) (m ((c : Thread nD τ).loc main_arg3)) (EI m c))
        (m ((c : Thread nD τ).loc main_arg4)) (Val.dcol (F := Ideal) (EI m c)) := by
  refine ((W7_arr m ρ c 3).trans (RV.r2 (V6 m ρ) c)).trans ?_
  show Val.mmsI (W6 m ρ c (Proc.devRef .tc main_v30)) (W6 m ρ c (Proc.devRef .tc main_arg4)) (W6 m ρ c (Proc.devRef .tc main_v17)) = _
  rw [W6_v30 m ρ RV, W6_arg4, W6_v17]

set_option maxHeartbeats 4000000 in
theorem W8_v41 (c : Dev nD) : W8 m ρ c (Proc.devRef .tc main_v41) = Val.agg (F := Ideal) (W7 m ρ c (Proc.devRef .tc main_v31)) (EI m c) := by
  show StableHlo.after hostOps3 (W7 m ρ c) (Proc.devRef .tc main_v41) = _
  after_results
  rw [W7_v3, W7_v6]
  rfl
set_option maxHeartbeats 4000000 in
theorem W8_v42 (c : Dev nD) : W8 m ρ c (Proc.devRef .tc main_v42) = Val.brow (F := Ideal) (m ((c : Thread nD τ).loc main_arg5)) := by
  show StableHlo.after hostOps3 (W7 m ρ c) (Proc.devRef .tc main_v42) = _
  after_results
  rw [W7_arg5]
  rfl

/-- After the second bias region: the second layer. -/
theorem W9_v43 (RV : RegionVals) (c : Dev nD) : W9 m ρ c (Proc.devRef .tc main_v43)
    = Val.layerRelu (Val.layerRelu (m ((c : Thread nD τ).loc main_arg0)) (m ((c : Thread nD τ).loc main_arg2)) (m ((c : Thread nD τ).loc main_arg3)) (EI m c))
        (m ((c : Thread nD τ).loc main_arg4)) (m ((c : Thread nD τ).loc main_arg5)) (EI m c) := by
  refine ((W9_arr m ρ c 3).trans (RV.r3 (V8 m ρ) c)).trans ?_
  show Val.bsaRelu (W8 m ρ c (Proc.devRef .tc main_v41)) (W8 m ρ c (Proc.devRef .tc main_v17)) (W8 m ρ c (Proc.devRef .tc main_v42)) = _
  rw [W8_v41, W8_v42, W8_v17, W7_v31 m ρ RV]
  rfl

/-- After the third projection region. -/
theorem W10_v44 (RV : RegionVals) (c : Dev nD) : W10 m ρ c (Proc.devRef .tc main_v44)
    = Val.mmsI (Val.layerRelu (Val.layerRelu (m ((c : Thread nD τ).loc main_arg0)) (m ((c : Thread nD τ).loc main_arg2)) (m ((c : Thread nD τ).loc main_arg3)) (EI m c))
        (m ((c : Thread nD τ).loc main_arg4)) (m ((c : Thread nD τ).loc main_arg5)) (EI m c))
        (m ((c : Thread nD τ).loc main_arg6)) (Val.dcol (F := Ideal) (EI m c)) := by
  refine ((W10_arr m ρ c 3).trans (RV.r4 (V9 m ρ) c)).trans ?_
  show Val.mmsI (W9 m ρ c (Proc.devRef .tc main_v43)) (W9 m ρ c (Proc.devRef .tc main_arg6)) (W9 m ρ c (Proc.devRef .tc main_v17)) = _
  rw [W9_v43 m ρ RV, W9_arg6, W9_v17]

set_option maxHeartbeats 4000000 in
theorem W11_v54 (c : Dev nD) : W11 m ρ c (Proc.devRef .tc main_v54) = Val.agg (F := Ideal) (W10 m ρ c (Proc.devRef .tc main_v44)) (EI m c) := by
  show StableHlo.after hostOps5 (W10 m ρ c) (Proc.devRef .tc main_v54) = _
  after_results
  rw [W10_v3, W10_v6]
  rfl
set_option maxHeartbeats 4000000 in
theorem W11_v55 (c : Dev nD) : W11 m ρ c (Proc.devRef .tc main_v55) = Val.brow (F := Ideal) (m ((c : Thread nD τ).loc main_arg7)) := by
  show StableHlo.after hostOps5 (W10 m ρ c) (Proc.devRef .tc main_v55) = _
  after_results
  rw [W10_arg7]
  rfl

/-- The result buffer after the last region: the three layers applied to the argument arrays. -/
theorem result_eq (RV : RegionVals) (c : Dev nD) : W12 m ρ c (Proc.devRef .tc main_v56)
    = Val.kTerm (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) := by
  refine ((W12_arr m ρ c 3).trans (RV.r5 (V11 m ρ) c)).trans ?_
  show Val.bsaLin (W11 m ρ c (Proc.devRef .tc main_v54)) (W11 m ρ c (Proc.devRef .tc main_v17)) (W11 m ρ c (Proc.devRef .tc main_v55)) = _
  rw [W11_v54, W11_v55, W11_v17, W10_v44 m ρ RV]
  rfl

end Cert.KernelIdeal.Fold

end
-- ==== Proof.RTerm.lean ====
import proofs.«161498_j6167573037327_2_alg».proof.ReferenceIdeal

/-!
# The reference's result as a composition of named pieces

The reference computes a three-layer graph convolution. Its result is written here as the composition of a
few named functions of the argument arrays: the two index vectors (edge endpoints followed by self loops),
the wrap of negative indices, the degrees, the node scale 1/√deg, and one layer.
-/

noncomputable section

namespace Cert.ReferenceIdeal.Val

open Cert.ReferenceIdeal Idealize.ShloMosaic
open Cert.ReferenceIdeal.Facts₀ Cert.ReferenceIdeal.Facts

variable {F : FTy → Type} [FloatOps F] [Cert.ReferenceIdeal.Facts]

/-- The scatter targets: row 0 of the edge list followed by one self loop per node. -/
def rowIdx (ei : (⟨S2x1600000, .i32⟩ : BufTy).Contents (Elt F)) : (⟨S1700000, .i32⟩ : BufTy).Contents (Elt F) :=
  concatenate S1700000 0 [⟨S1600000, (shapeCast S1600000 (extractStridedSlice S1x1600000 ![0, 0] ei slices_S2x1600000_S1x1600000_0_0) shapeCasts_S1x1600000_S1600000)⟩, ⟨S100000, (iotaInDim S100000 32 0)⟩] concatenates_S1600000_S100000_S1700000_d0

/-- The gather sources: row 1 of the edge list followed by one self loop per node. -/
def colIdx (ei : (⟨S2x1600000, .i32⟩ : BufTy).Contents (Elt F)) : (⟨S1700000, .i32⟩ : BufTy).Contents (Elt F) :=
  concatenate S1700000 0 [⟨S1600000, (shapeCast S1600000 (extractStridedSlice S1x1600000 ![1, 0] ei slices_S2x1600000_S1x1600000_1_0) shapeCasts_S1x1600000_S1600000)⟩, ⟨S100000, (iotaInDim S100000 32 0)⟩] concatenates_S1600000_S100000_S1700000_d0

/-- A negative index counts from the end: v + 100000 where v < 0, v elsewhere. -/
def wrapIdx (v : (⟨S1700000, .i32⟩ : BufTy).Contents (Elt F)) : (⟨S1700000, .i32⟩ : BufTy).Contents (Elt F) :=
  select (cmpi .slt v (broadcastInDim S1700000 ![] bcast_S_S1700000 (constantI S_ 32 0#32))) (addi v (broadcastInDim S1700000 ![] bcast_S_S1700000 (constantI S_ 32 100000#32))) v

/-- A vector of indices laid out as a column [E, 1]. -/
def col1 (v : (⟨S1700000, .i32⟩ : BufTy).Contents (Elt F)) : (⟨S1700000x1, .i32⟩ : BufTy).Contents (Elt F) :=
  broadcastInDim S1700000x1 ![0] bcast_S1700000_S1700000x1_0 v

/-- The degree of every node: a scatter-add of ones along the targets, into zeros. -/
def degv (ei : (⟨S2x1600000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (col1 (rowIdx ei)) (broadcastInDim S1700000 ![] bcast_S_S1700000 (constant S_ .f32 0x3F800000#32))

/-- The node scale: 1/√(max(deg, 1)) where deg > 0, zero elsewhere. -/
def dvec (ei : (⟨S2x1600000, .i32⟩ : BufTy).Contents (Elt F)) : (⟨S100000, .f32⟩ : BufTy).Contents (Elt F) :=
  select (cmpf .ogt (degv ei) (broadcastInDim S100000 ![] bcast_S_S100000 (constant S_ .f32 0x00000000#32))) (Host.rsqrt (maximumf (degv ei) (broadcastInDim S100000 ![] bcast_S_S100000 (constant S_ .f32 0x3F800000#32)))) (broadcastInDim S100000 ![] bcast_S_S100000 (id (constant S_ .f32 0x00000000#32)))

/-- One layer before its activation: every node collects, from each edge landing on it, the projected
    features of the edge's source times the product of both endpoints' scales, then the bias is added. -/
def layerPre (X : (⟨S100000x128, .f32⟩ : BufTy).Contents (Elt F)) (W : (⟨S128x128, .f32⟩ : BufTy).Contents (Elt F)) (b : (⟨S128, .f32⟩ : BufTy).Contents (Elt F)) (ei : (⟨S2x1600000, .i32⟩ : BufTy).Contents (Elt F)) : (⟨S100000x128, .f32⟩ : BufTy).Contents (Elt F) :=
  addf (Host.scatterAdd scatter_S100000x128_S1700000x1_S1700000x128_1_0_0_1 (broadcastInDim S100000x128 ![] bcast_S_S100000x128 (constant S_ .f32 0x00000000#32)) (col1 (rowIdx ei)) (mulf (Host.gather gather_S100000x128_S1700000x1_S1700000x128_1_0_n_n_0_1_1128 (Host.dotGeneral dot_S100000x128_S128x128_S100000x128_1_0_0_1_n_n none X W) (col1 (wrapIdx (colIdx ei)))) (broadcastInDim S1700000x128 ![0, 1] bcast_S1700000x1_S1700000x128_0_1 (broadcastInDim S1700000x1 ![0] bcast_S1700000_S1700000x1_0 (mulf (Host.gather gather_S100000_S1700000x1_S1700000_n_0_n_n_0_1_1 (dvec ei) (col1 (wrapIdx (rowIdx ei)))) (Host.gather gather_S100000_S1700000x1_S1700000_n_0_n_n_0_1_1 (dvec ei) (col1 (wrapIdx (colIdx ei))))))))) (broadcastInDim S100000x128 ![0, 1] bcast_S1x128_S100000x128_0_1 (broadcastInDim S1x128 ![1] bcast_S128_S1x128_1 b))

/-- The activation between layers: the maximum with zero. -/
def relu (X : (⟨S100000x128, .f32⟩ : BufTy).Contents (Elt F)) : (⟨S100000x128, .f32⟩ : BufTy).Contents (Elt F) :=
  maximumf X (broadcastInDim S100000x128 ![] bcast_S_S100000x128 (constant S_ .f32 0x00000000#32))

/-- The three layers. -/
def refTerm (x : (⟨S100000x128, .f32⟩ : BufTy).Contents (Elt F)) (ei : (⟨S2x1600000, .i32⟩ : BufTy).Contents (Elt F)) (W1 : (⟨S128x128, .f32⟩ : BufTy).Contents (Elt F)) (b1 : (⟨S128, .f32⟩ : BufTy).Contents (Elt F)) (W2 : (⟨S128x128, .f32⟩ : BufTy).Contents (Elt F)) (b2 : (⟨S128, .f32⟩ : BufTy).Contents (Elt F)) (W3 : (⟨S128x128, .f32⟩ : BufTy).Contents (Elt F)) (b3 : (⟨S128, .f32⟩ : BufTy).Contents (Elt F)) : (⟨S100000x128, .f32⟩ : BufTy).Contents (Elt F) :=
  layerPre (relu (layerPre (relu (layerPre x W1 b1 ei)) W2 b2 ei)) W3 b3 ei

end Cert.ReferenceIdeal.Val

end
-- ==== Proof.RefSide.lean ====
import proofs.«161498_j6167573037327_2_alg».proof.Proof.RefRun
import proofs.«161498_j6167573037327_2_alg».proof.Proof.RTerm

/-!
# The reference's run ends at the named composition

The composed term the reference's run leaves in its result buffer is, piece by piece, the three-layer
composition of the named functions: the same operations applied to the same operands.
-/

noncomputable section

namespace Cert.ReferenceIdeal.RefSide

open Cert.ReferenceIdeal Cert.ReferenceIdeal.Gen Cert.ReferenceIdeal.ValueP Cert.ReferenceIdeal.Val
open Idealize.ShloMosaic Idealize.ShloMosaic.TcCoe Idealize.SL.Sem

variable {F : FTy → Type} [FloatOps F]

set_option maxRecDepth 8192 in
/-- The run's result term is the three layers applied to the argument arrays. -/
theorem res_eq (m : (ℓ : Loc nD τ sig) → Buf (Elt F) ℓ) (c : Dev nD) :
    res_main_v114 (F := F) m c
      = refTerm (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold res_main_v114 refTerm layerPre relu dvec degv col1 wrapIdx rowIdx colIdx
  rfl

end Cert.ReferenceIdeal.RefSide

end
-- ==== Proof.LibReal.lean ====
import Mathlib.Data.EReal.Inv
import Idealize.ShloMosaic.PureOps.Ideal

/-!
# Real-valued extended reals

An extended real is *real* when it is the image of a real number, that is when it is neither
of the two infinities. The sum, difference, product, maximum and finite sums of real extended
reals are real, and so is the quotient of one by a nonzero real; a coercion of a finite sum of
reals is the sum of the coercions. The last sections read a few `f32` bit patterns as the
extended reals they denote, and read back the comparison `|x| < +∞`.
-/

noncomputable section

namespace Cert.GinMath

open Idealize.ShloMosaic
open scoped BigOperators

/-- An extended real is *real* when it is the image of a real number. -/
def IsReal (x : EReal) : Prop := ∃ r : ℝ, x = (r : EReal)

/-- The image of a real number is real. -/
theorem IsReal.coe (r : ℝ) : IsReal (r : EReal) := ⟨r, rfl⟩

/-- Zero is real. -/
theorem isReal_zero : IsReal 0 := ⟨0, rfl⟩

/-- One is real. -/
theorem isReal_one : IsReal 1 := ⟨1, rfl⟩

/-- An extended real is real exactly when it is neither `⊤` nor `⊥`. -/
theorem isReal_iff {x : EReal} : IsReal x ↔ x ≠ ⊤ ∧ x ≠ ⊥ := by
  constructor
  · rintro ⟨r, rfl⟩; exact ⟨EReal.coe_ne_top r, EReal.coe_ne_bot r⟩
  · rintro ⟨ht, hb⟩
    induction x using EReal.rec with
    | bot => exact absurd rfl hb
    | coe r => exact ⟨r, rfl⟩
    | top => exact absurd rfl ht

/-- An extended real strictly between `⊥` and `⊤` is real. -/
theorem isReal_of_lt {x : EReal} (hb : ⊥ < x) (ht : x < ⊤) : IsReal x :=
  isReal_iff.mpr ⟨ne_of_lt ht, ne_of_gt hb⟩

/-- The sum of two real extended reals is real. -/
theorem IsReal.add {x y : EReal} (hx : IsReal x) (hy : IsReal y) : IsReal (x + y) := by
  obtain ⟨a, rfl⟩ := hx; obtain ⟨b, rfl⟩ := hy
  exact ⟨a + b, (EReal.coe_add a b).symm⟩

/-- The difference of two real extended reals is real. -/
theorem IsReal.sub {x y : EReal} (hx : IsReal x) (hy : IsReal y) : IsReal (x - y) := by
  obtain ⟨a, rfl⟩ := hx; obtain ⟨b, rfl⟩ := hy
  exact ⟨a - b, (EReal.coe_sub a b).symm⟩

/-- The product of two real extended reals is real. -/
theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- The negation of a real extended real is real. -/
theorem IsReal.neg {x : EReal} (hx : IsReal x) : IsReal (-x) := by
  obtain ⟨a, rfl⟩ := hx
  exact ⟨-a, (EReal.coe_neg a).symm⟩

/-- The maximum of two real extended reals is real. -/
theorem IsReal.max {x y : EReal} (hx : IsReal x) (hy : IsReal y) : IsReal (max x y) := by
  rcases max_choice x y with h | h <;> rw [h] <;> assumption

/-- A finite sum of real extended reals is real. -/
theorem IsReal.sum {ι : Type*} {s : Finset ι} {f : ι → EReal} (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add
      (ih fun i hi => h i (Finset.mem_insert_of_mem hi))

/-- The quotient of a real extended real by a nonzero real is real. -/
theorem IsReal.div_coe {x : EReal} {y : ℝ} (hy : y ≠ 0) (hx : IsReal x) :
    IsReal (Ideal.div x (y : EReal)) := by
  rw [Ideal.div_coe hy]
  exact hx.mul (IsReal.coe _)

/-- The quotient of two reals, the divisor not zero, as an extended real. -/
theorem div_coe_coe (x : ℝ) {y : ℝ} (hy : y ≠ 0) :
    Ideal.div (x : EReal) (y : EReal) = ((x / y : ℝ) : EReal) := by
  rw [Ideal.div_coe hy, ← EReal.coe_mul, mul_one_div]

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A family of real extended reals is the coercion of a family of reals. -/
theorem exists_real_fun {ι : Type*} {f : ι → EReal} (h : ∀ i, IsReal (f i)) :
    ∃ g : ι → ℝ, ∀ i, f i = (g i : EReal) :=
  ⟨fun i => Classical.choose (h i), fun i => Classical.choose_spec (h i)⟩

/-! ### A few `f32` patterns -/

/-- The pattern of `+0.0` denotes zero. -/
theorem ofBits_zero : Ideal.ofBits .f32 0x00000000#32 = 0 := by
  simp [Ideal.ofBits, Ideal.ieee]

/-- The pattern `0x3F800000` denotes one. -/
theorem ofBits_one : Ideal.ofBits .f32 0x3F800000#32 = ((1 : ℝ) : EReal) := by
  simp [Ideal.ofBits, Ideal.ieee, -EReal.coe_mul]; norm_num

/-- The pattern `0x47C35000` denotes `100000 = (2^23 + 4411392) · 2^(-7)`. -/
theorem ofBits_1e5 : Ideal.ofBits .f32 0x47C35000#32 = ((100000 : ℝ) : EReal) := by
  simp [Ideal.ofBits, Ideal.ieee, -EReal.coe_mul]; norm_num

/-- The pattern `0x3727C5AC` (the `f32` nearest `10⁻⁵`) has an exponent field that is neither
all zeros nor all ones, so it denotes a real number. -/
theorem isReal_ofBits_eps : IsReal (Ideal.ofBits .f32 0x3727C5AC#32) := by
  simp [Ideal.ofBits, Ideal.ieee, -EReal.coe_mul]
  exact ⟨_, rfl⟩

/-- The pattern `0x7F800000` (sign clear, exponent all ones, fraction zero) denotes `⊤`. -/
theorem ofBits_inf : Ideal.ofBits .f32 0x7F800000#32 = ⊤ := by
  simp [Ideal.ofBits, Ideal.ieee]

/-! ### A finiteness test read back -/

/-- A one-bit word made from a Boolean is `1` exactly when the Boolean is true. -/
theorem ofBool_eq_one_iff (b : Bool) : BitVec.ofBool b = 1#1 ↔ b = true := by
  cases b <;> decide

/-- An extended real whose absolute value `max x (-x)` is below `⊤` is real: `x < ⊤` excludes
`⊤`, and `-x < ⊤` excludes `⊥`. -/
theorem isReal_of_abs_lt_top {x : EReal} (h : max x (-x) < ⊤) : IsReal x := by
  rw [max_lt_iff] at h
  refine isReal_iff.mpr ⟨ne_of_lt h.1, ?_⟩
  rintro rfl
  simp at h

/-- The comparison `|x| < +∞` against the pattern of `+∞`, answered `1`, says `x` is real. -/
theorem isReal_of_cmp_abs_lt_inf {x : EReal}
    (h : Ideal.cmp .olt (max x (-x)) (Ideal.ofBits .f32 0x7F800000#32) = 1#1) : IsReal x := by
  rw [ofBits_inf] at h
  have e : Ideal.cmp .olt (max x (-x)) ⊤ = BitVec.ofBool (decide (max x (-x) < ⊤)) := rfl
  rw [e, ofBool_eq_one_iff, decide_eq_true_eq] at h
  exact isReal_of_abs_lt_top h

end Cert.GinMath

end
-- ==== Proof.LibRowIndex.lean ====
import Idealize.ShloMosaic.PureOps.Ideal
import Idealize.ShloMosaic.Lib.ValueIdx

/-!
# Rows picked by an index column: a gather of rows, a gather of entries, a scatter of rows

An array of E start indices, laid out as a column [E, 1], picks for each e one row of an operand with N rows.
A gather reads the start index as a signed integer and clamps it into [0, N − 1]; a scatter reads it signed and
does not clamp: an update whose row falls outside [0, N) lands nowhere. The three facts below read the two
gathers at an index and say which updates of the scatter land on a given entry.
-/

noncomputable section

namespace Cert.RowIndex

open Idealize.ShloMosaic Idealize.ShloMosaic.ValueIdx

/-- The row a start index selects in a gather: read signed, clamped into [0, N − 1]. -/
def clampRow {w : Nat} (N : Nat) (hN : 0 < N) (b : BitVec w) : Fin N := ⟨min b.toInt.toNat (N - 1), by omega⟩

/-- Dimension numbers of a gather of whole rows: operand [N, C], start indices [E, 1], result [E, C]. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Dimension numbers of a gather of single entries of a vector: operand [N], start indices [E, 1], result [E]. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Dimension numbers of a scatter of whole rows: operand [N, C], scatter indices [E, 1], updates [E, C]. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- A gather of rows at (e, c): the operand at the clamped row of the e-th start index, column c. -/
theorem rowGather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (clampRow N hN (idx (ix2 e (0 : Fin 1)))) c) := by
  unfold Host.gather
  congr 1
  funext a
  refine Fin.ext ?_
  match a with
  | ⟨0, _⟩ =>
    show (rowGatherDims N E C wf).start (ix2 e c) idx 0 + (rowGatherDims N E C wf).batchCoord (ix2 e c) 0
        + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
        + (rowGatherDims N E C wf).offCoord (ix2 e c) 1 = _
    rw [GatherDims.batchCoord_eq_zero _ _ _ List.not_mem_nil]
    have h1 : (1 : Fin 2) ∉ (rowGatherDims N E C wf).startIndexMap := by
      intro h; exact absurd (congrArg Fin.val (List.mem_singleton.mp h)) Nat.one_ne_zero
    unfold GatherDims.start
    rw [dif_neg h1]
    simp only [Nat.add_zero, Nat.zero_add]
    rfl

/-- A gather of entries at e: the operand at the clamped e-th start index. -/
theorem vecGather_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow N hN (idx (ix2 e (0 : Fin 1))))) := by
  unfold Host.gather
  congr 1
  funext a
  obtain rfl : a = 0 := Subsingleton.elim _ _
  refine Fin.ext ?_
  show (vecGatherDims N E wf).start (ix1 e) idx 0 + (vecGatherDims N E wf).batchCoord (ix1 e) 0
      + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- Update (e, c) of a scatter of rows lands on entry (p, q) exactly when the e-th scatter index, read signed,
    is p, and the columns agree. -/
theorem rowScatter_resultIdx {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) (p : Fin N) (q : Fin C) :
    (rowScatterDims N E C wf).resultIdx? (ix2 e c) idx = some (ix2 p q)
      ↔ (idx (ix2 e (0 : Fin 1))).toInt = (p.val : ℤ) ∧ c = q := by
  have hw0 : (rowScatterDims N E C wf).window (ix2 e c) 0 = 0 := by
    unfold ScatterDims.window
    rw [dif_neg]
    intro h
    have h' := (List.mem_filter.mp h).2
    simp at h'
  have hst0 : (rowScatterDims N E C wf).start (ix2 e c) idx 0 = (idx (ix2 e (0 : Fin 1))).toInt := by
    unfold ScatterDims.start
    rw [dif_pos (show (0 : Fin 2) ∈ (rowScatterDims N E C wf).scatterDimsToOperandDims from List.mem_singleton.mpr rfl)]
    have hsi : (rowScatterDims N E C wf).siIdx (ix2 e c)
        ⟨List.idxOf (0 : Fin 2) (rowScatterDims N E C wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hst1 : (rowScatterDims N E C wf).start (ix2 e c) idx 1 = 0 := by
    unfold ScatterDims.start
    rw [dif_neg]
    intro h
    exact absurd (congrArg Fin.val (List.mem_singleton.mp h)) Nat.one_ne_zero
  have hw1 : (rowScatterDims N E C wf).window (ix2 e c) 1 = c.val := by
    unfold ScatterDims.window
    rw [dif_pos]
    · rfl
    · refine List.mem_filter.mpr ⟨List.mem_finRange _, ?_⟩
      apply decide_eq_true
      intro h
      exact absurd (congrArg Fin.val (List.mem_singleton.mp h)) Nat.one_ne_zero
  have hsum0 : (rowScatterDims N E C wf).start (ix2 e c) idx 0
      + (((rowScatterDims N E C wf).window (ix2 e c) 0 : ℕ) : ℤ) = (idx (ix2 e (0 : Fin 1))).toInt := by
    rw [hst0, hw0]; simp
  have hsum1 : (rowScatterDims N E C wf).start (ix2 e c) idx 1
      + (((rowScatterDims N E C wf).window (ix2 e c) 1 : ℕ) : ℤ) = (c.val : ℤ) := by
    rw [hst1, hw1]; simp
  unfold ScatterDims.resultIdx?
  split
  · rename_i h
    rw [Option.some.injEq]
    constructor
    · intro hf
      have h0 : ((rowScatterDims N E C wf).start (ix2 e c) idx 0
          + (((rowScatterDims N E C wf).window (ix2 e c) 0 : ℕ) : ℤ)).toNat = p.val :=
        congrArg (fun f => (f 0).val) hf
      have h1 : ((rowScatterDims N E C wf).start (ix2 e c) idx 1
          + (((rowScatterDims N E C wf).window (ix2 e c) 1 : ℕ) : ℤ)).toNat = q.val :=
        congrArg (fun f => (f 1).val) hf
      have hh := (h 0).1
      rw [hsum0] at h0 hh
      rw [hsum1] at h1
      exact ⟨by omega, Fin.ext (by omega)⟩
    · rintro ⟨hp, rfl⟩
      funext a; refine Fin.ext ?_
      match a with
      | ⟨0, _⟩ =>
        show ((rowScatterDims N E C wf).start (ix2 e c) idx 0
          + (((rowScatterDims N E C wf).window (ix2 e c) 0 : ℕ) : ℤ)).toNat = p.val
        rw [hsum0, hp]; simp
      | ⟨1, _⟩ =>
        show ((rowScatterDims N E C wf).start (ix2 e c) idx 1
          + (((rowScatterDims N E C wf).window (ix2 e c) 1 : ℕ) : ℤ)).toNat = c.val
        rw [hsum1]; simp
  · rename_i h
    constructor
    · intro hf; exact absurd hf (by simp)
    · rintro ⟨hp, rfl⟩
      exfalso; apply h
      intro a
      match a with
      | ⟨0, _⟩ =>
        show 0 ≤ (rowScatterDims N E C wf).start (ix2 e c) idx 0
              + (((rowScatterDims N E C wf).window (ix2 e c) 0 : ℕ) : ℤ)
          ∧ (rowScatterDims N E C wf).start (ix2 e c) idx 0
              + (((rowScatterDims N E C wf).window (ix2 e c) 0 : ℕ) : ℤ) < (N : ℤ)
        rw [hsum0, hp]
        have := p.isLt
        omega
      | ⟨1, _⟩ =>
        show 0 ≤ (rowScatterDims N E C wf).start (ix2 e c) idx 1
              + (((rowScatterDims N E C wf).window (ix2 e c) 1 : ℕ) : ℤ)
          ∧ (rowScatterDims N E C wf).start (ix2 e c) idx 1
              + (((rowScatterDims N E C wf).window (ix2 e c) 1 : ℕ) : ℤ) < (C : ℤ)
        rw [hsum1]
        have := c.isLt
        omega

end Cert.RowIndex

end
-- ==== Proof.LibScaleSum.lean ====
import proofs.«161498_j6167573037327_2_alg».proof.Proof.LibReal
import proofs.«161498_j6167573037327_2_alg».proof.Proof.LibRowIndex

/-!
# A row scale passes through a scatter-add of rows

Let every row p of an [N, C] array collect the updates e whose scatter index is p. If each update is a product
h_e · s_e with a further factor depending only on the target row, that factor can be taken out of the sum —
provided every number in sight is real, since on the extended reals a product does not distribute over a sum
that meets both infinities.
-/

noncomputable section

namespace Cert.ScaleSum

open Idealize.ShloMosaic Idealize.ShloMosaic.ValueIdx Cert.GinMath Cert.RowIndex
open scoped BigOperators

/-- A real factor goes inside a finite sum of real extended reals. -/
private theorem mul_sum_of_isReal {ι : Type*} (s : Finset ι) (a : EReal) (ha : IsReal a) (f : ι → EReal)
    (hf : ∀ i ∈ s, IsReal (f i)) : a * ∑ i ∈ s, f i = ∑ i ∈ s, a * f i := by
  classical
  obtain ⟨r, rfl⟩ := ha
  induction s using Finset.induction_on with
  | empty => simp
  | insert b s hb ih =>
    rw [Finset.sum_insert hb, Finset.sum_insert hb, ← ih (fun i hi => hf i (Finset.mem_insert_of_mem hi))]
    obtain ⟨x, hx⟩ := hf b (Finset.mem_insert_self b s)
    obtain ⟨y, hy⟩ := IsReal.sum (fun i hi => hf i (Finset.mem_insert_of_mem hi))
    rw [hx, hy, ← EReal.coe_add, ← EReal.coe_mul, ← EReal.coe_mul, ← EReal.coe_mul, ← EReal.coe_add, mul_add]

/-- A scatter-add of real updates into a real array is real. -/
theorem isReal_scatterAdd {s si su : Shape} {w : Nat} (ds : ScatterDims s si su)
    (z : s.Idx → EReal) (hz : ∀ i, IsReal (z i)) (idx : IVec si w) (u : su.Idx → EReal) (hu : ∀ j, IsReal (u j)) (i : s.Idx) :
    IsReal (Host.scatterAdd (F := Ideal) (φ := .f32) ds z idx u i) := by
  show IsReal (Ideal.hostScatterAdd ds z idx u i)
  unfold Ideal.hostScatterAdd
  exact (hz i).add (IsReal.sum fun j _ => hu j)

/-- The p-th scale times what a scatter-add of rows collects on (p, q), the updates being h · s with s the
    scale at the update's source row, is what the scatter-add collects when every update carries the product
    of both scales: the source row's and the (wrapped, clamped) target row's. Updates land on row p only if
    their scatter index is p, where wrapping a nonnegative index and clamping an index below N change nothing. -/
theorem scale_through_scatterAdd {N E C : Nat} (hN : 0 < N)
    (wfs : ScatterDims.WF ⟨2, ![N, C]⟩ ⟨2, ![E, 1]⟩ ⟨2, ![E, C]⟩ [1] [0] [0] 1)
    (H : (⟨2, ![N, C]⟩ : Shape).Idx → EReal) (hH : ∀ i, IsReal (H i))
    (d : (⟨1, ![N]⟩ : Shape).Idx → EReal) (hd : ∀ n, IsReal (d n))
    (z : (⟨2, ![N, C]⟩ : Shape).Idx → EReal) (hz : ∀ i, z i = 0)
    (src dst dstW : IVec ⟨2, ![E, 1]⟩ 32)
    (hW : ∀ e : Fin E, 0 ≤ (dst (ix2 e (0 : Fin 1))).toInt → dstW (ix2 e (0 : Fin 1)) = dst (ix2 e (0 : Fin 1)))
    (updK updR : (⟨2, ![E, C]⟩ : Shape).Idx → EReal)
    (hK : ∀ (e : Fin E) (c : Fin C), updK (ix2 e c)
        = H (ix2 (clampRow N hN (src (ix2 e (0 : Fin 1)))) c) * d (ix1 (clampRow N hN (src (ix2 e (0 : Fin 1))))))
    (hR : ∀ (e : Fin E) (c : Fin C), updR (ix2 e c)
        = H (ix2 (clampRow N hN (src (ix2 e (0 : Fin 1)))) c)
            * (d (ix1 (clampRow N hN (src (ix2 e (0 : Fin 1))))) * d (ix1 (clampRow N hN (dstW (ix2 e (0 : Fin 1)))))))
    (p : Fin N) (q : Fin C) :
    d (ix1 p) * Host.scatterAdd (F := Ideal) (φ := .f32) (rowScatterDims N E C wfs) z dst updK (ix2 p q)
      = Host.scatterAdd (F := Ideal) (φ := .f32) (rowScatterDims N E C wfs) z dst updR (ix2 p q) := by
  show d (ix1 p) * Ideal.hostScatterAdd (rowScatterDims N E C wfs) z dst updK (ix2 p q)
    = Ideal.hostScatterAdd (rowScatterDims N E C wfs) z dst updR (ix2 p q)
  unfold Ideal.hostScatterAdd
  rw [hz, zero_add, zero_add]
  have hKreal : ∀ j, IsReal (updK j) := by
    intro j
    obtain ⟨e, c, rfl⟩ : ∃ (e : Fin E) (c : Fin C), j = ix2 e c := ⟨j 0, j 1, eq_ix2 j⟩
    rw [hK]; exact (hH _).mul (hd _)
  rw [mul_sum_of_isReal _ _ (hd (ix1 p)) _ (fun j _ => hKreal j)]
  refine Finset.sum_congr rfl ?_
  intro j hj
  obtain ⟨e, c, rfl⟩ : ∃ (e : Fin E) (c : Fin C), j = ix2 e c := ⟨j 0, j 1, eq_ix2 j⟩
  obtain ⟨hp, -⟩ := (rowScatter_resultIdx wfs dst e c p q).mp (Finset.mem_filter.mp hj).2
  have hnn : 0 ≤ (dst (ix2 e (0 : Fin 1))).toInt := by rw [hp]; exact Int.natCast_nonneg _
  have hcl : clampRow N hN (dst (ix2 e (0 : Fin 1))) = p := by
    apply Fin.ext
    show min (dst (ix2 e (0 : Fin 1))).toInt.toNat (N - 1) = p.val
    rw [hp, Int.toNat_natCast]
    have := p.isLt
    omega
  rw [hK, hR, hW e hnn, hcl, mul_comm (d (ix1 p)), mul_assoc]

end Cert.ScaleSum

end
-- ==== Proof.LibRealOps.lean ====
import proofs.«161498_j6167573037327_2_alg».proof.Proof.LibReal
import Idealize.ShloMosaic.Lib.ValueIdx

/-!
# Real entries through a few host operations

Every entry of a concatenation is an entry of one of its pieces, and every entry of a gather is an entry of
its operand; so a property of all entries passes through both. The inverse square root of a positive real is
real, hence so is "1/√d where d > 0, else a real".
-/

noncomputable section

namespace Cert.RealOps

open Idealize.ShloMosaic Cert.GinMath

/-- A property of every entry of every piece holds of every entry of their concatenation. -/
theorem forall_concatenate {α : Type} (P : α → Prop) {t : Shape} (a : Fin t.rank)
    (xs : List ((s : Shape) × (s.Idx → α))) (h : Shape.Concatenates (xs.map (·.1)) t a)
    (hP : ∀ p ∈ xs, ∀ i, P (p.2 i)) (j : t.Idx) : P (concatenate t a xs h j) := by
  unfold concatenate
  exact hP _ (List.getElem_mem _) _

/-- A property of every entry of the operand holds of every entry of a gather. -/
theorem forall_gather {α : Type} (P : α → Prop) {s si so : Shape} {w : Nat} (ds : GatherDims s si so)
    (x : s.Idx → α) (idx : IVec si w) (hP : ∀ i, P (x i)) (j : so.Idx) : P (Host.gather ds x idx j) := by
  unfold Host.gather
  exact hP _

/-- The inverse square root of a positive real is real. -/
theorem isReal_rsqrt_of_pos {r : ℝ} (hr : 0 < r) : IsReal (Ideal.rsqrt (r : EReal)) := by
  rw [Ideal.rsqrt_coe, if_neg (not_lt.mpr hr.le), if_neg hr.ne']
  exact IsReal.coe _

/-- "1/√d where d > z, else z'" is real when d and z' are and z is zero. -/
theorem isReal_select_rsqrt (d z z' : EReal) (hd : IsReal d) (hz : z = 0) (hz' : IsReal z') :
    IsReal (Scalar.select (Ideal.cmp .ogt d z) (Ideal.rsqrt d) z') := by
  obtain ⟨r, rfl⟩ := hd
  subst hz
  by_cases hpos : (0 : ℝ) < r
  · have hc : Ideal.cmp .ogt (r : EReal) 0 = 1#1 := by
      unfold Ideal.cmp
      have : (0 : EReal) < (r : EReal) := by exact_mod_cast hpos
      simp [this]
    rw [hc, ValueIdx.select_one]
    exact isReal_rsqrt_of_pos hpos
  · have hc : Ideal.cmp .ogt (r : EReal) 0 = 0#1 := by
      unfold Ideal.cmp
      have : ¬ (0 : EReal) < (r : EReal) := by
        intro h; exact hpos (by exact_mod_cast h)
      simp [this]
    rw [hc, ValueIdx.select_zero]
    exact hz'

end Cert.RealOps

end
-- ==== Proof.Math.lean ====
import proofs.«161498_j6167573037327_2_alg».proof.Proof.KTerm
import proofs.«161498_j6167573037327_2_alg».proof.Proof.RTerm
import proofs.«161498_j6167573037327_2_alg».proof.Proof.LibScaleSum
import proofs.«161498_j6167573037327_2_alg».proof.Proof.LibRealOps
import Idealize.ShloMosaic.PureOps.Ideal.Laws
import Idealize.ShloMosaic.Lib.Pipeline.Value
import Idealize.ShloMosaic.Lib.ValueIdx
import Idealize.ShloMosaic.Lib.StackMember

/-!
# The factored normalisation computes the same three layers

One layer of the graph convolution sends node features X to

  out(p, q) = act( Σ_{e : row e = p} H(g(col e), q) · d(g(row e)) · d(g(col e)) + b(q) ),   H = X · W,

where d is the node scale 1/√deg and g reads an index as the gathers do (a negative index counts from the
end, then the index is clamped into range). The other program scales H by d before the rows are collected
and scales the collected row by d(p) afterwards:

  out(p, q) = act( (Σ_{e : row e = p} H(g(col e), q) · d(g(col e))) · d(p) + b(q) ).

An edge landing on row p has scatter index p itself, which is nonnegative and in range, so g(row e) = p and
d(g(row e)) = d(p) is constant along the sum. Taking it out of the sum is distributivity, which on the
extended reals needs every summand to be real; the node scale is real because a degree is a finite sum of
ones, and each layer's output is real when its inputs are. Three layers chain.
-/

noncomputable section

namespace Cert.GcnMath

open Idealize.ShloMosaic Idealize.ShloMosaic.ValueIdx
open Cert.GinMath Cert.RowIndex Cert.ScaleSum Cert.RealOps
open scoped BigOperators

/-! ## Layout operations read at an index -/

section ReferenceReads
variable [Cert.ReferenceIdeal.Facts]
open Cert.ReferenceIdeal Cert.ReferenceIdeal.Facts₀

/-- A vector laid out as a column, at (e, 0), is the vector at e. -/
theorem col_apply {α : Type} (v : S1700000.Idx → α) (e : Fin 1700000) :
    broadcastInDim S1700000x1 ![0] bcast_S1700000_S1700000x1_0 v (ix2 e (0 : Fin 1)) = v (ix1 e) :=
  broadcastInDim_apply _ bcast_S1700000_S1700000x1_0 v (ix2 e (0 : Fin 1)) (ix1 e) (fun a => match a with
    | ⟨0, _⟩ => by show e.val = if (1700000 : Nat) = 1 then 0 else e.val; rw [if_neg (by decide)])

/-- Wrapping leaves a nonnegative index alone. -/
theorem wrap_of_nonneg (v : IVec S1700000 32) (i : S1700000.Idx) (h : 0 ≤ (v i).toInt) :
    select (cmpi .slt v (broadcastInDim S1700000 ![] bcast_S_S1700000 (constantI S_ 32 0#32)))
      (addi v (broadcastInDim S1700000 ![] bcast_S_S1700000 (constantI S_ 32 100000#32))) v i = v i := by
  show Scalar.select (IntOp.cmpi .slt (v i) 0#32) (IntOp.addi (v i) 100000#32) (v i) = v i
  have hc : IntOp.cmpi .slt (v i) 0#32 = 0#1 := by
    unfold IntOp.cmpi
    have hs : (v i).slt 0#32 = false := by
      rw [BitVec.slt_eq_decide]
      simp
      omega
    simp [hs]
  rw [hc, select_zero]

/-- A bias vector laid out as a row and repeated down the rows, at (p, q), is the bias at q. -/
theorem bias_apply {α : Type} (b : S128.Idx → α) (p : Fin 100000) (q : Fin 128) :
    broadcastInDim S100000x128 ![0, 1] bcast_S1x128_S100000x128_0_1 (broadcastInDim S1x128 ![1] bcast_S128_S1x128_1 b) (ix2 p q)
      = b (ix1 q) := by
  rw [broadcastInDim_apply _ bcast_S1x128_S100000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])]
  exact broadcastInDim_apply _ bcast_S128_S1x128_1 b (ix2 (0 : Fin 1) q) (ix1 q) (fun a => match a with
    | ⟨0, _⟩ => by show q.val = if (128 : Nat) = 1 then 0 else q.val; rw [if_neg (by decide)])

/-- A per-edge factor laid out as a column and repeated along the features, at (e, c), is the factor at e. -/
theorem norm_apply {α : Type} (g : S1700000.Idx → α) (e : Fin 1700000) (c : Fin 128) :
    broadcastInDim S1700000x128 ![0, 1] bcast_S1700000x1_S1700000x128_0_1 (broadcastInDim S1700000x1 ![0] bcast_S1700000_S1700000x1_0 g) (ix2 e c)
      = g (ix1 e) := by
  rw [broadcastInDim_apply _ bcast_S1700000x1_S1700000x128_0_1 _ (ix2 e c) (ix2 e (0 : Fin 1)) (fun a => match a with
    | ⟨0, _⟩ => by show e.val = if (1700000 : Nat) = 1 then 0 else e.val; rw [if_neg (by decide)]
    | ⟨1, _⟩ => by show 0 = if (1 : Nat) = 1 then 0 else c.val; rw [if_pos rfl])]
  exact col_apply g e

/-- The zero array is zero everywhere. -/
theorem zero_apply (i : S100000x128.Idx) :
    broadcastInDim S100000x128 ![] bcast_S_S100000x128 (constant (F := Ideal) S_ .f32 0x00000000#32) i = 0 := by
  show Ideal.ofBits .f32 0x00000000#32 = 0
  exact Ideal.ofBits_zero_f32

/-- The projection X · W at (p, q) is the sum over k of X(p, k) · W(k, q). -/
theorem dot_apply (X : S100000x128.Idx → EReal) (W : S128x128.Idx → EReal) (p : Fin 100000) (q : Fin 128) :
    Host.dotGeneral (F := Ideal) (φ₁ := .f32) (φ₂ := .f32) dot_S100000x128_S128x128_S100000x128_1_0_0_1_n_n none X W (ix2 p q)
      = ∑ k : Fin 128, X (ix2 p k) * W (ix2 k q) :=
  StackMember.dotGeneral_plain_apply (m := 100000) (n := 128) (k := 128) none X W p q

/-- Every entry of a broadcast is an entry of its operand. -/
theorem forall_bcast {α : Type} (P : α → Prop) {s t : Shape} (dims : Fin s.rank → Fin t.rank) (h : s.BroadcastsInDim t dims)
    (x : s.Idx → α) (hP : ∀ i, P (x i)) (j : t.Idx) : P (broadcastInDim t dims h x j) := by
  unfold broadcastInDim
  exact hP _

end ReferenceReads

section KernelReads
variable [Cert.KernelIdeal.Facts]
open Cert.KernelIdeal Cert.KernelIdeal.Facts₀

/-- A vector laid out as a column [N, 1], at (p, 0), is the vector at p. -/
theorem castcol_apply {α : Type} (d : S100000.Idx → α) (p : Fin 100000) :
    shapeCast S100000x1 d shapeCasts_S100000_S100000x1 (ix2 p (0 : Fin 1)) = d (ix1 p) :=
  shapeCast_apply d _ (ix2 p (0 : Fin 1)) (ix1 p) (by
    rw [Shape.rowMajor_val_one, Shape.rowMajor_val_two]
    show p.val = p.val * 1 + 0
    omega)

/-- A vector laid out as a row [1, C], at (0, q), is the vector at q. -/
theorem castrow_apply {α : Type} (b : S128.Idx → α) (q : Fin 128) :
    shapeCast S1x128 b shapeCasts_S128_S1x128 (ix2 (0 : Fin 1) q) = b (ix1 q) :=
  shapeCast_apply b _ (ix2 (0 : Fin 1) q) (ix1 q) (by
    rw [Shape.rowMajor_val_one, Shape.rowMajor_val_two]
    show q.val = 0 * 128 + q.val
    omega)

end KernelReads

/-! ## The two programs' shared pieces are the same functions

The two printed programs name the same operations with the same shapes; their pieces differ only in which
program's side conditions they cite. -/

section Shared
variable [Cert.KernelIdeal.Facts] [Cert.ReferenceIdeal.Facts]
open Cert.ReferenceIdeal

theorem rowIdx_eq (ei : S2x1600000.Idx → BitVec 32) :
    Cert.KernelIdeal.Val.rowIdx (F := Ideal) ei = Cert.ReferenceIdeal.Val.rowIdx (F := Ideal) ei := rfl

theorem colIdx_eq (ei : S2x1600000.Idx → BitVec 32) :
    Cert.KernelIdeal.Val.colIdx (F := Ideal) ei = Cert.ReferenceIdeal.Val.colIdx (F := Ideal) ei := rfl

theorem wrapIdx_eq (v : S1700000.Idx → BitVec 32) :
    Cert.KernelIdeal.Val.wrapIdx (F := Ideal) v = Cert.ReferenceIdeal.Val.wrapIdx (F := Ideal) v := rfl

theorem col1_eq (v : S1700000.Idx → BitVec 32) :
    Cert.KernelIdeal.Val.col1 (F := Ideal) v = Cert.ReferenceIdeal.Val.col1 (F := Ideal) v := rfl

theorem degv_eq (ei : S2x1600000.Idx → BitVec 32) :
    Cert.KernelIdeal.Val.degv (F := Ideal) ei = Cert.ReferenceIdeal.Val.degv (F := Ideal) ei := rfl

theorem dvec_eq (ei : S2x1600000.Idx → BitVec 32) :
    Cert.KernelIdeal.Val.dvec (F := Ideal) ei = Cert.ReferenceIdeal.Val.dvec (F := Ideal) ei := rfl

/-! The printed dimension numbers are those of a scatter of rows, a gather of rows and a gather of entries. -/

theorem scatterK_eq : Cert.KernelIdeal.scatter_S100000x128_S1700000x1_S1700000x128_1_0_0_1
    = rowScatterDims 100000 1700000 128 Cert.KernelIdeal.Facts₀.scatter_S100000x128_S1700000x1_S1700000x128_1_0_0_1_wf := rfl

theorem scatterR_eq : Cert.ReferenceIdeal.scatter_S100000x128_S1700000x1_S1700000x128_1_0_0_1
    = rowScatterDims 100000 1700000 128 Cert.KernelIdeal.Facts₀.scatter_S100000x128_S1700000x1_S1700000x128_1_0_0_1_wf := rfl

theorem gatherK_eq : Cert.KernelIdeal.gather_S100000x128_S1700000x1_S1700000x128_1_0_n_n_0_1_1128
    = rowGatherDims 100000 1700000 128 Cert.ReferenceIdeal.Facts₀.gather_S100000x128_S1700000x1_S1700000x128_1_0_n_n_0_1_1128_wf := rfl

theorem gatherR_eq : Cert.ReferenceIdeal.gather_S100000x128_S1700000x1_S1700000x128_1_0_n_n_0_1_1128
    = rowGatherDims 100000 1700000 128 Cert.ReferenceIdeal.Facts₀.gather_S100000x128_S1700000x1_S1700000x128_1_0_n_n_0_1_1128_wf := rfl

theorem vgatherR_eq : Cert.ReferenceIdeal.gather_S100000_S1700000x1_S1700000_n_0_n_n_0_1_1
    = vecGatherDims 100000 1700000 Cert.ReferenceIdeal.Facts₀.gather_S100000_S1700000x1_S1700000_n_0_n_n_0_1_1_wf := rfl

end Shared

/-! ## The node scale is real -/

section Scale
variable [Cert.ReferenceIdeal.Facts]
open Cert.ReferenceIdeal Cert.ReferenceIdeal.Facts₀

/-- A degree is a finite sum of ones added to zero. -/
theorem isReal_degv (ei : S2x1600000.Idx → BitVec 32) (n : S100000.Idx) :
    IsReal (Cert.ReferenceIdeal.Val.degv (F := Ideal) ei n) := by
  unfold Cert.ReferenceIdeal.Val.degv
  refine isReal_scatterAdd _ _ (fun i => ?_) _ _ (fun j => ?_) n
  · show IsReal (Ideal.ofBits .f32 0x00000000#32)
    rw [ofBits_zero]; exact isReal_zero
  · show IsReal (Ideal.ofBits .f32 0x3F800000#32)
    rw [ofBits_one]; exact IsReal.coe 1

/-- "1/√max(g, 1) where g > 0, zero elsewhere" is real when g is: the maximum is at least one. -/
theorem isReal_scale (g : S100000.Idx → EReal) (hg : ∀ n, IsReal (g n)) (n : S100000.Idx) :
    IsReal (select (cmpf (F := Ideal) (φ := .f32) .ogt g (broadcastInDim S100000 ![] bcast_S_S100000 (constant (F := Ideal) S_ .f32 0x00000000#32)))
      (Host.rsqrt (F := Ideal) (φ := .f32) (maximumf (F := Ideal) (φ := .f32) g (broadcastInDim S100000 ![] bcast_S_S100000 (constant (F := Ideal) S_ .f32 0x3F800000#32))))
      (broadcastInDim S100000 ![] bcast_S_S100000 (id (constant (F := Ideal) S_ .f32 0x00000000#32))) n) := by
  show IsReal (Scalar.select (Ideal.cmp .ogt (g n) (Ideal.ofBits .f32 0x00000000#32))
    (Ideal.rsqrt (max (g n) (Ideal.ofBits .f32 0x3F800000#32))) (Ideal.ofBits .f32 0x00000000#32))
  obtain ⟨r, hr⟩ := hg n
  rw [hr, ofBits_one, ofBits_zero]
  unfold Scalar.select
  split
  · rcases le_total r 1 with h | h
    · rw [max_eq_right (EReal.coe_le_coe_iff.mpr h)]
      exact isReal_rsqrt_of_pos one_pos
    · rw [max_eq_left (EReal.coe_le_coe_iff.mpr h)]
      exact isReal_rsqrt_of_pos (lt_of_lt_of_le one_pos h)
  · exact isReal_zero

/-- The node scale is real. -/
theorem isReal_dvec (ei : S2x1600000.Idx → BitVec 32) (n : S100000.Idx) :
    IsReal (Cert.ReferenceIdeal.Val.dvec (F := Ideal) ei n) := by
  unfold Cert.ReferenceIdeal.Val.dvec
  exact isReal_scale _ (isReal_degv ei) n

/-- The projection of real features by real weights is real. -/
theorem isReal_dot (X : S100000x128.Idx → EReal) (W : S128x128.Idx → EReal)
    (hX : ∀ i, IsReal (X i)) (hW : ∀ i, IsReal (W i)) (i : S100000x128.Idx) :
    IsReal (Host.dotGeneral (F := Ideal) (φ₁ := .f32) (φ₂ := .f32) dot_S100000x128_S128x128_S100000x128_1_0_0_1_n_n none X W i) := by
  obtain ⟨p, q, rfl⟩ : ∃ (p : Fin 100000) (q : Fin 128), i = ix2 p q := ⟨i 0, i 1, eq_ix2 i⟩
  rw [dot_apply]
  exact IsReal.sum fun k _ => (hX _).mul (hW _)

end Scale

/-! ## One layer -/

section Layer
variable [Cert.KernelIdeal.Facts] [Cert.ReferenceIdeal.Facts]
open Cert.ReferenceIdeal

/-- The law of one layer over abstract index vectors and an abstract real scale: the target's scale times the
    rows collected from the pre-scaled projection is what is collected when every edge carries both scales. -/
theorem scale_layer (X : S100000x128.Idx → EReal) (W : S128x128.Idx → EReal) (d : S100000.Idx → EReal)
    (rowv colv : S1700000.Idx → BitVec 32)
    (hX : ∀ i, IsReal (X i)) (hW : ∀ i, IsReal (W i)) (hd : ∀ n, IsReal (d n)) (p : Fin 100000) (q : Fin 128) :
    d (ix1 p) * Host.scatterAdd (F := Ideal) (φ := .f32) Cert.KernelIdeal.scatter_S100000x128_S1700000x1_S1700000x128_1_0_0_1
        (broadcastInDim Cert.KernelIdeal.S100000x128 ![] Cert.KernelIdeal.Facts₀.bcast_S_S100000x128 (constant (F := Ideal) Cert.KernelIdeal.S_ .f32 0x00000000#32))
        (Cert.KernelIdeal.Val.col1 (F := Ideal) rowv)
        (Host.gather Cert.KernelIdeal.gather_S100000x128_S1700000x1_S1700000x128_1_0_n_n_0_1_1128
          (Cert.KernelIdeal.Val.mmsI X W (shapeCast Cert.KernelIdeal.S100000x1 d Cert.KernelIdeal.Facts₀.shapeCasts_S100000_S100000x1))
          (Cert.KernelIdeal.Val.col1 (F := Ideal) (Cert.KernelIdeal.Val.wrapIdx (F := Ideal) colv))) (ix2 p q)
      = Host.scatterAdd (F := Ideal) (φ := .f32) scatter_S100000x128_S1700000x1_S1700000x128_1_0_0_1
        (broadcastInDim S100000x128 ![] Facts₀.bcast_S_S100000x128 (constant (F := Ideal) S_ .f32 0x00000000#32))
        (Cert.ReferenceIdeal.Val.col1 (F := Ideal) rowv)
        (mulf (F := Ideal) (φ := .f32)
          (Host.gather gather_S100000x128_S1700000x1_S1700000x128_1_0_n_n_0_1_1128
            (Host.dotGeneral (F := Ideal) (φ₁ := .f32) (φ₂ := .f32) dot_S100000x128_S128x128_S100000x128_1_0_0_1_n_n none X W)
            (Cert.ReferenceIdeal.Val.col1 (F := Ideal) (Cert.ReferenceIdeal.Val.wrapIdx (F := Ideal) colv)))
          (broadcastInDim S1700000x128 ![0, 1] Facts₀.bcast_S1700000x1_S1700000x128_0_1
            (broadcastInDim S1700000x1 ![0] Facts₀.bcast_S1700000_S1700000x1_0
              (mulf (F := Ideal) (φ := .f32)
                (Host.gather gather_S100000_S1700000x1_S1700000_n_0_n_n_0_1_1 d
                  (Cert.ReferenceIdeal.Val.col1 (F := Ideal) (Cert.ReferenceIdeal.Val.wrapIdx (F := Ideal) rowv)))
                (Host.gather gather_S100000_S1700000x1_S1700000_n_0_n_n_0_1_1 d
                  (Cert.ReferenceIdeal.Val.col1 (F := Ideal) (Cert.ReferenceIdeal.Val.wrapIdx (F := Ideal) colv))))))) (ix2 p q) := by
  rw [col1_eq, col1_eq, wrapIdx_eq, scatterK_eq, scatterR_eq, gatherK_eq, gatherR_eq, vgatherR_eq]
  have hN : 0 < 100000 := by decide
  have hcol : ∀ (v : S1700000.Idx → BitVec 32) (e : Fin 1700000),
      Cert.ReferenceIdeal.Val.col1 (F := Ideal) v (ix2 e (0 : Fin 1)) = v (ix1 e) := fun v e => col_apply v e
  refine scale_through_scatterAdd hN _
    (Host.dotGeneral (F := Ideal) (φ₁ := .f32) (φ₂ := .f32) dot_S100000x128_S128x128_S100000x128_1_0_0_1_n_n none X W)
    (isReal_dot X W hX hW) d hd _ (fun i => zero_apply i)
    (Cert.ReferenceIdeal.Val.col1 (F := Ideal) (Cert.ReferenceIdeal.Val.wrapIdx (F := Ideal) colv))
    (Cert.ReferenceIdeal.Val.col1 (F := Ideal) rowv)
    (Cert.ReferenceIdeal.Val.col1 (F := Ideal) (Cert.ReferenceIdeal.Val.wrapIdx (F := Ideal) rowv))
    ?_ _ _ ?_ ?_ p q
  · intro e he
    rw [hcol] at he ⊢
    rw [hcol]
    exact wrap_of_nonneg rowv (ix1 e) he
  · intro e c
    rw [rowGather_apply hN, Cert.KernelIdeal.Val.mmsI_apply, castcol_apply, dot_apply]
  · intro e c
    rw [mulf_apply, norm_apply, mulf_apply, rowGather_apply hN, vecGather_apply hN, vecGather_apply hN,
      mul_comm (d _) (d _)]

end Layer

section Layers
variable [Cert.KernelIdeal.Facts] [Cert.ReferenceIdeal.Facts]
open Cert.ReferenceIdeal

/-- A layer without activation, entry by entry. -/
theorem layerLin_apply (X : S100000x128.Idx → EReal) (W : S128x128.Idx → EReal) (b : S128.Idx → EReal)
    (ei : S2x1600000.Idx → BitVec 32) (hX : ∀ i, IsReal (X i)) (hW : ∀ i, IsReal (W i)) (p : Fin 100000) (q : Fin 128) :
    Cert.KernelIdeal.Val.layerLin X W b ei (ix2 p q) = Cert.ReferenceIdeal.Val.layerPre (F := Ideal) X W b ei (ix2 p q) := by
  unfold Cert.KernelIdeal.Val.layerLin Cert.ReferenceIdeal.Val.layerPre
  rw [Cert.KernelIdeal.Val.bsaLin_apply, addf_apply, bias_apply]
  unfold Cert.KernelIdeal.Val.brow Cert.KernelIdeal.Val.dcol Cert.KernelIdeal.Val.agg
  rw [castrow_apply, castcol_apply, dvec_eq, rowIdx_eq, colIdx_eq, mul_comm,
    scale_layer X W (Cert.ReferenceIdeal.Val.dvec (F := Ideal) ei) (Cert.ReferenceIdeal.Val.rowIdx (F := Ideal) ei)
      (Cert.ReferenceIdeal.Val.colIdx (F := Ideal) ei) hX hW (isReal_dvec ei) p q]

/-- A layer without activation: the two programs compute the same array. -/
theorem layerLin_eq (X : S100000x128.Idx → EReal) (W : S128x128.Idx → EReal) (b : S128.Idx → EReal)
    (ei : S2x1600000.Idx → BitVec 32) (hX : ∀ i, IsReal (X i)) (hW : ∀ i, IsReal (W i)) :
    Cert.KernelIdeal.Val.layerLin X W b ei = Cert.ReferenceIdeal.Val.layerPre (F := Ideal) X W b ei := by
  funext i
  obtain ⟨p, q, rfl⟩ : ∃ (p : Fin 100000) (q : Fin 128), i = ix2 p q := ⟨i 0, i 1, eq_ix2 i⟩
  exact layerLin_apply X W b ei hX hW p q

/-- A layer followed by the maximum with zero: the two programs compute the same array. -/
theorem layerRelu_eq (X : S100000x128.Idx → EReal) (W : S128x128.Idx → EReal) (b : S128.Idx → EReal)
    (ei : S2x1600000.Idx → BitVec 32) (hX : ∀ i, IsReal (X i)) (hW : ∀ i, IsReal (W i)) :
    Cert.KernelIdeal.Val.layerRelu X W b ei
      = Cert.ReferenceIdeal.Val.relu (F := Ideal) (Cert.ReferenceIdeal.Val.layerPre (F := Ideal) X W b ei) := by
  funext i
  obtain ⟨p, q, rfl⟩ : ∃ (p : Fin 100000) (q : Fin 128), i = ix2 p q := ⟨i 0, i 1, eq_ix2 i⟩
  have h := layerLin_apply X W b ei hX hW p q
  unfold Cert.KernelIdeal.Val.layerLin at h
  rw [Cert.KernelIdeal.Val.bsaLin_apply] at h
  unfold Cert.KernelIdeal.Val.layerRelu Cert.ReferenceIdeal.Val.relu
  rw [Cert.KernelIdeal.Val.bsaRelu_apply, maximumf_apply, zero_apply, h]

/-! ## A layer's output is real -/

/-- A layer before its activation is real when features, weights and bias are. -/
theorem isReal_layerPre (X : S100000x128.Idx → EReal) (W : S128x128.Idx → EReal) (b : S128.Idx → EReal)
    (ei : S2x1600000.Idx → BitVec 32) (hX : ∀ i, IsReal (X i)) (hW : ∀ i, IsReal (W i)) (hb : ∀ i, IsReal (b i))
    (i : S100000x128.Idx) : IsReal (Cert.ReferenceIdeal.Val.layerPre (F := Ideal) X W b ei i) := by
  have hd := isReal_dvec ei
  unfold Cert.ReferenceIdeal.Val.layerPre
  rw [addf_apply]
  refine IsReal.add (isReal_scatterAdd _ _ (fun j => ?_) _ _ (fun j => ?_) i) ?_
  · rw [zero_apply]; exact isReal_zero
  · rw [mulf_apply]
    refine IsReal.mul (forall_gather IsReal _ _ _ (isReal_dot X W hX hW) j) ?_
    refine forall_bcast IsReal _ _ _ (forall_bcast IsReal _ _ _ (fun e => ?_)) j
    rw [mulf_apply]
    exact (forall_gather IsReal _ _ _ hd e).mul (forall_gather IsReal _ _ _ hd e)
  · exact forall_bcast IsReal _ _ _ (forall_bcast IsReal _ _ _ hb) i

/-- The maximum with zero of a real array is real. -/
theorem isReal_relu (Y : S100000x128.Idx → EReal) (hY : ∀ i, IsReal (Y i)) (i : S100000x128.Idx) :
    IsReal (Cert.ReferenceIdeal.Val.relu (F := Ideal) Y i) := by
  unfold Cert.ReferenceIdeal.Val.relu
  rw [maximumf_apply, zero_apply]
  exact (hY i).max isReal_zero

/-! ## Three layers -/

/-- On real features, weights and biases the two programs' three-layer terms are the same array. -/
theorem kTerm_eq_refTerm
    (x : S100000x128.Idx → EReal) (ei : S2x1600000.Idx → BitVec 32)
    (W1 : S128x128.Idx → EReal) (b1 : S128.Idx → EReal) (W2 : S128x128.Idx → EReal) (b2 : S128.Idx → EReal)
    (W3 : S128x128.Idx → EReal) (b3 : S128.Idx → EReal)
    (hx : ∀ i, IsReal (x i)) (hW1 : ∀ i, IsReal (W1 i)) (hb1 : ∀ i, IsReal (b1 i))
    (hW2 : ∀ i, IsReal (W2 i)) (hb2 : ∀ i, IsReal (b2 i)) (hW3 : ∀ i, IsReal (W3 i)) (hb3 : ∀ i, IsReal (b3 i)) :
    Cert.KernelIdeal.Val.kTerm x ei W1 b1 W2 b2 W3 b3
      = Cert.ReferenceIdeal.Val.refTerm (F := Ideal) x ei W1 b1 W2 b2 W3 b3 := by
  unfold Cert.KernelIdeal.Val.kTerm Cert.ReferenceIdeal.Val.refTerm
  have h1 : ∀ i, IsReal (Cert.ReferenceIdeal.Val.relu (F := Ideal) (Cert.ReferenceIdeal.Val.layerPre (F := Ideal) x W1 b1 ei) i) :=
    isReal_relu _ (isReal_layerPre x W1 b1 ei hx hW1 hb1)
  have h2 : ∀ i, IsReal (Cert.ReferenceIdeal.Val.relu (F := Ideal) (Cert.ReferenceIdeal.Val.layerPre (F := Ideal)
      (Cert.ReferenceIdeal.Val.relu (F := Ideal) (Cert.ReferenceIdeal.Val.layerPre (F := Ideal) x W1 b1 ei)) W2 b2 ei) i) :=
    isReal_relu _ (isReal_layerPre _ W2 b2 ei h1 hW2 hb2)
  rw [layerRelu_eq x W1 b1 ei hx hW1, layerRelu_eq _ W2 b2 ei h1 hW2, layerLin_eq _ W3 b3 ei h2 hW3]

end Layers

end Cert.GcnMath

end
-- ==== Proof.Finite.lean ====
import proofs.«161498_j6167573037327_2_alg».proof.Pre_finite_inputs
import proofs.«161498_j6167573037327_2_alg».proof.Proof.LibReal
import Idealize.ShloMosaic.Lib.ReduceAll
import Idealize.ShloMosaic.Lib.ValueIdx

/-!
# The precondition says every float argument is real

The precondition is a conjunction, one conjunct per float argument: the all-reduction of the entrywise test
|a| < +∞. A conjunction of one-bit words is one exactly when every word is; an all-reduction is one exactly
when the test is one at every entry; and an extended real whose absolute value is below +∞ is a real number.
-/

noncomputable section

namespace Cert.Pre_finite_inputs.Finite

open Cert.Pre_finite_inputs Idealize.ShloMosaic Cert.GinMath
open Cert.Pre_finite_inputs.Facts

variable [Cert.Pre_finite_inputs.Facts]

instance : Subsingleton S_.Idx := ⟨fun a b => funext fun d => d.elim0⟩

/-- One conjunct: if the all-reduction of |a| < +∞ is one, every entry of a is real. -/
theorem isReal_of_all {s : Shape} {axes : List (Fin s.rank)} (a : FVec Ideal s .f32) (bc : S_.BroadcastsInDim s (![] : Fin 0 → Fin s.rank))
    (h : s.ReducesTo axes S_) (init : IVec S_ 1)
    (e : Host.reduce IntOp.andi (cmpf (F := Ideal) .olt (Host.absf a) (broadcastInDim s ![] bc (constant (F := Ideal) S_ .f32 0x7F800000#32))) init h h_S_ ValueIdx.ix0 = 1#1)
    (i : s.Idx) : IsReal (a i) :=
  isReal_of_cmp_abs_lt_inf (Host.reduce_andi_all _ init h h_S_ ValueIdx.ix0 e i)

/-- The precondition gives: every entry of every float argument is real. -/
theorem all_real (a0 : FVec Ideal S100000x128 .f32) (a1 : IVec S2x1600000 32) (a2 : FVec Ideal S128x128 .f32) (a3 : FVec Ideal S128 .f32)
    (a4 : FVec Ideal S128x128 .f32) (a5 : FVec Ideal S128 .f32) (a6 : FVec Ideal S128x128 .f32) (a7 : FVec Ideal S128 .f32)
    (h : fn (F := Ideal) a0 a1 a2 a3 a4 a5 a6 a7 = fun _ => 1#1) :
    (∀ i, IsReal (a0 i)) ∧ (∀ i, IsReal (a2 i)) ∧ (∀ i, IsReal (a3 i)) ∧ (∀ i, IsReal (a4 i)) ∧ (∀ i, IsReal (a5 i))
      ∧ (∀ i, IsReal (a6 i)) ∧ (∀ i, IsReal (a7 i)) := by
  have h0 := congrFun h ValueIdx.ix0
  dsimp only [fn, fn_part1] at h0
  obtain ⟨h6, e7⟩ := IntOp.andi_eq_one.mp h0
  obtain ⟨h5, e6⟩ := IntOp.andi_eq_one.mp h6
  obtain ⟨h4, e5⟩ := IntOp.andi_eq_one.mp h5
  obtain ⟨h3, e4⟩ := IntOp.andi_eq_one.mp h4
  obtain ⟨h2, e3⟩ := IntOp.andi_eq_one.mp h3
  obtain ⟨e0, e2⟩ := IntOp.andi_eq_one.mp h2
  exact ⟨isReal_of_all a0 _ _ _ e0, isReal_of_all a2 _ _ _ e2, isReal_of_all a3 _ _ _ e3, isReal_of_all a4 _ _ _ e4,
    isReal_of_all a5 _ _ _ e5, isReal_of_all a6 _ _ _ e6, isReal_of_all a7 _ _ _ e7⟩

end Cert.Pre_finite_inputs.Finite

end
-- ==== Proof.lean ====
/-
  Two programs computing a three-layer graph convolution over 100000 nodes with 128 features and 1600000 edges (plus one
  self loop per node), equal as extended reals on finite inputs.

  The reference aggregates, along every edge, the projected features of the source times the product of both endpoints'
  scales 1/√deg. The kernel program factors that normalisation: a Pallas region projects the features and scales them by
  the source's scale before they are gathered; the host scatter-adds the gathered rows; a second Pallas region scales the
  aggregate by the target's scale, adds the bias and, between layers, takes the maximum with zero. The two agree because
  an edge that lands on row p carries the raw index p, which neither the wrap of negative indices nor the clamp of a
  gather changes, so the target's scale is a constant of the row and moves through the sum over the row's edges — a
  distributive law that, on the extended reals, needs every number in sight to be real. That is what the precondition
  gives: every float argument is finite, the degrees are finite sums of ones, and every layer maps real arrays to real
  arrays.

  The pieces: the kernel program's run with its result named (KRun), the six regions' output arrays as whole-array
  functions of their entry contents (Regions), the contents of the result buffer read boundary by boundary (KFold), the
  reference's run and its result as the same named pieces (RefRun, RefSide), the equality of the two compositions on
  real inputs (Math), and the precondition read as "every entry is real" (Finite).
-/
import proofs.«161498_j6167573037327_2_alg».proof.Defs
import proofs.«161498_j6167573037327_2_alg».proof.Proof.Gen.Kernel
import proofs.«161498_j6167573037327_2_alg».proof.Proof.Gen.Kernel.Frame
import proofs.«161498_j6167573037327_2_alg».proof.Proof.Gen.KernelIdeal
import proofs.«161498_j6167573037327_2_alg».proof.Proof.Gen.KernelIdeal.Frame
import proofs.«161498_j6167573037327_2_alg».proof.Proof.Gen.ReferenceIdeal
import proofs.«161498_j6167573037327_2_alg».proof.Proof.Gen.Pre_finite_inputs
import proofs.«161498_j6167573037327_2_alg».proof.Proof.KRun
import proofs.«161498_j6167573037327_2_alg».proof.Proof.Regions
import proofs.«161498_j6167573037327_2_alg».proof.Proof.KFold
import proofs.«161498_j6167573037327_2_alg».proof.Proof.RefRun
import proofs.«161498_j6167573037327_2_alg».proof.Proof.RefSide
import proofs.«161498_j6167573037327_2_alg».proof.Proof.Math
import proofs.«161498_j6167573037327_2_alg».proof.Proof.Finite
import Idealize.ShloMosaic.Adequacy
import Idealize.ShloMosaic.Init

noncomputable section

namespace Cert.Proof

open Idealize.ShloMosaic Idealize.ShloMosaic.TcCoe Idealize.SL.Sem

/-- The six regions' output arrays as whole-array functions of their entry contents. -/
theorem regionVals : Cert.KernelIdeal.Fold.RegionVals :=
  ⟨Cert.KernelIdeal.RegionVal.region0, Cert.KernelIdeal.RegionVal.region1, Cert.KernelIdeal.RegionVal.region2,
    Cert.KernelIdeal.RegionVal.region3, Cert.KernelIdeal.RegionVal.region4, Cert.KernelIdeal.RegionVal.region5⟩

theorem frame_p : Cert.frame_Kernel := fun m ρ _ => Cert.Kernel.Gen.frame m ρ

theorem frame_pi : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- Both runs end with the result array at the three-layer composition of the kernel program's pieces: the kernel
    program by reading its buffers boundary by boundary, the reference because its own composition equals that one on
    arguments that agree and are real. -/
theorem algebraic : Cert.algebraic_KernelIdeal_ReferenceIdeal := by
  intro m ρ m' ρ' hpre hagree
  refine ⟨fun c => Cert.KernelIdeal.Val.kTerm (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Fold.result_eq m ρ regionVals c), (h c).2⟩)
      (Cert.KernelIdeal.RunVal.run_named (F := Ideal) m ρ)
  · refine (θ_run Cert.ReferenceIdeal.defs _ _).mono (fun r h c => ⟨(h c).1.trans ?_, (h c).2⟩)
      (Cert.ReferenceIdeal.ValueP.run (F := Ideal) m' ρ')
    obtain ⟨h0, h2, h3, h4, h5, h6, h7⟩ := Cert.Pre_finite_inputs.Finite.all_real _ _ _ _ _ _ _ _ (hpre c)
    rw [Cert.ReferenceIdeal.RefSide.res_eq, (hagree c).1, (hagree c).2.1, (hagree c).2.2.1, (hagree c).2.2.2.1,
      (hagree c).2.2.2.2.1, (hagree c).2.2.2.2.2.1, (hagree c).2.2.2.2.2.2.1, (hagree c).2.2.2.2.2.2.2]
    exact (Cert.GcnMath.kTerm_eq_refTerm _ _ _ _ _ _ _ _ h0 h2 h3 h4 h5 h6 h7).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
